-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S2x800000 : Shape := ⟨2, ![2, 800000]⟩
abbrev S50000 : Shape := ⟨1, ![50000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256x256 .f32) (main_arg5 : FVec F S256 .f32) (main_arg6 : FVec F S256x256 .f32) (main_arg7 : FVec F S256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_v33

def fn {F : FTy → Type} [FloatOps F] (main_arg0 : FVec F S50000x256 .f32) (main_arg1 : FVec F S256x256 .f32) (main_arg2 : FVec F S256 .f32) (main_arg3 : FVec F S256x256 .f32) (main_arg4 : FVec F S256x256 .f32) (main_arg5 : FVec F S256 .f32) (main_arg6 : FVec F S256x256 .f32) (main_arg7 : FVec F S256 .f32) (main_arg8 : FVec F S256 .f32) (main_arg9 : IVec S2x800000 32) (main_arg10 : IVec S50000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S50000x256 : Shape := ⟨2, ![50000, 256]⟩
abbrev S256x256 : Shape := ⟨2, ![256, 256]⟩
abbrev S256 : Shape := ⟨1, ![256]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S80x256 : Shape := ⟨2, ![80, 256]⟩
abbrev S5000x256 : Shape := ⟨2, ![5000, 256]⟩
abbrev S5000x1 : Shape := ⟨2, ![5000, 1]⟩
abbrev S8x256 : Shape := ⟨2, ![8, 256]⟩
abbrev S10x8x256 : Shape := ⟨3, ![10, 8, 256]⟩
abbrev S10x1x256 : Shape := ⟨3, ![10, 1, 256]⟩
abbrev S10x256 : Shape := ⟨2, ![10, 256]⟩
abbrev S5000 : Shape := ⟨1, ![5000]⟩
abbrev S1x1 : Shape := ⟨2, ![1, 1]⟩
abbrev S1 : Shape := ⟨1, ![1]⟩

abbrev nBuf : Space → Nat
  | .hbm => 121
  | .vmem => 34
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S2x800000, .i32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000x1, .f32⟩
  | .hbm, ⟨17, _⟩ => ⟨S_, .f32⟩
  | .hbm, ⟨18, _⟩ => ⟨S50000x1, .f32⟩
  | .hbm, ⟨19, _⟩ => ⟨S800000x1, .i32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .i1⟩
  | .hbm, ⟨24, _⟩ => ⟨S_, .f32⟩
  | .hbm, ⟨25, _⟩ => ⟨S50000x1, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S_, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x256, .f32⟩
  | .hbm, ⟨43, _⟩ => ⟨S_, .f32⟩
  | .hbm, ⟨44, _⟩ => ⟨S50000x256, .f32⟩
  | .hbm, ⟨45, _⟩ => ⟨S800000x1, .i32⟩
  | .hbm, ⟨46, _⟩ => ⟨S50000x256, .f32⟩
  | .hbm, ⟨47, _⟩ => ⟨S256x256, .f32⟩
  | .hbm, ⟨48, _⟩ => ⟨S256x256, .f32⟩
  | .hbm, ⟨49, _⟩ => ⟨S1x256, .f32⟩
  | .hbm, ⟨50, _⟩ => ⟨S50000x256, .f32⟩
  | .hbm, ⟨51, _⟩ => ⟨S80x256, .f32⟩
  | .hbm, ⟨52, _⟩ => ⟨S80x256, .f32⟩
  | .hbm, ⟨53, _⟩ => ⟨S10x8x256, .f32⟩
  | .hbm, ⟨54, _⟩ => ⟨S10x1x256, .f32⟩
  | .hbm, ⟨55, _⟩ => ⟨S10x256, .f32⟩
  | .hbm, ⟨56, _⟩ => ⟨S10x8x256, .f32⟩
  | .hbm, ⟨57, _⟩ => ⟨S10x1x256, .f32⟩
  | .hbm, ⟨58, _⟩ => ⟨S10x256, .f32⟩
  | .hbm, ⟨59, _⟩ => ⟨S_, .f32⟩
  | .hbm, ⟨60, _⟩ => ⟨S256, .f32⟩
  | .hbm, ⟨61, _⟩ => ⟨S1x256, .f32⟩
  | .hbm, ⟨62, _⟩ => ⟨S_, .f32⟩
  | .hbm, ⟨63, _⟩ => ⟨S256, .f32⟩
  | .hbm, ⟨64, _⟩ => ⟨S1x256, .f32⟩
  | .hbm, ⟨65, _⟩ => ⟨S_, .f32⟩
  | .hbm, ⟨66, _⟩ => ⟨S1x256, .f32⟩
  | .hbm, ⟨67, _⟩ => ⟨S1x256, .f32⟩
  | .hbm, ⟨68, _⟩ => ⟨S_, .f32⟩
  | .hbm, ⟨69, _⟩ => ⟨S1x256, .f32⟩
  | .hbm, ⟨70, _⟩ => ⟨S1x256, .f32⟩
  | .hbm, ⟨71, _⟩ => ⟨S1x256, .f32⟩
  | .hbm, ⟨72, _⟩ => ⟨S1x256, .f32⟩
  | .hbm, ⟨73, _⟩ => ⟨S_, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S1x256, .f32⟩
  | .hbm, ⟨78, _⟩ => ⟨S50000x256, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x256, .f32⟩
  | .hbm, ⟨88, _⟩ => ⟨S_, .f32⟩
  | .hbm, ⟨89, _⟩ => ⟨S50000x256, .f32⟩
  | .hbm, ⟨90, _⟩ => ⟨S800000x1, .i32⟩
  | .hbm, ⟨91, _⟩ => ⟨S50000x256, .f32⟩
  | .hbm, ⟨92, _⟩ => ⟨S256x256, .f32⟩
  | .hbm, ⟨93, _⟩ => ⟨S256x256, .f32⟩
  | .hbm, ⟨94, _⟩ => ⟨S1x256, .f32⟩
  | .hbm, ⟨95, _⟩ => ⟨S50000x256, .f32⟩
  | .hbm, ⟨96, _⟩ => ⟨S_, .f32⟩
  | .hbm, ⟨97, _⟩ => ⟨S1x256, .f32⟩
  | .hbm, ⟨98, _⟩ => ⟨S50000x1, .i32⟩
  | .hbm, ⟨99, _⟩ => ⟨S1x256, .f32⟩
  | .hbm, ⟨100, _⟩ => ⟨S_, .f32⟩
  | .hbm, ⟨101, _⟩ => ⟨S50000x1, .f32⟩
  | .hbm, ⟨102, _⟩ => ⟨S_, .f32⟩
  | .hbm, ⟨103, _⟩ => ⟨S1x1, .f32⟩
  | .hbm, ⟨104, _⟩ => ⟨S50000x1, .i32⟩
  | .hbm, ⟨105, _⟩ => ⟨S1x1, .f32⟩
  | .hbm, ⟨106, _⟩ => ⟨S_, .f32⟩
  | .hbm, ⟨107, _⟩ => ⟨S1x1, .f32⟩
  | .hbm, ⟨108, _⟩ => ⟨S1x1, .f32⟩
  | .hbm, ⟨109, _⟩ => ⟨S1x256, .f32⟩
  | .hbm, ⟨110, _⟩ => ⟨S1x256, .f32⟩
  | .hbm, ⟨111, _⟩ => ⟨S1x256, .f32⟩
  | .hbm, ⟨112, _⟩ => ⟨S_, .f32⟩
  | .hbm, ⟨113, _⟩ => ⟨S1, .f32⟩
  | .hbm, ⟨114, _⟩ => ⟨S1x1, .f32⟩
  | .hbm, ⟨115, _⟩ => ⟨S1x1, .f32⟩
  | .hbm, ⟨116, _⟩ => ⟨S_, .f32⟩
  | .hbm, ⟨117, _⟩ => ⟨S1x1, .f32⟩
  | .hbm, ⟨118, _⟩ => ⟨S1x1, .f32⟩
  | .hbm, ⟨119, _⟩ => ⟨S1x256, .f32⟩
  | .hbm, ⟨120, _⟩ => ⟨S1x256, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S5000x1, .f32⟩
  | .local _ .vmem, ⟨5, _⟩ => ⟨S5000x1, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S5000x256, .f32⟩
  | .local _ .vmem, ⟨10, _⟩ => ⟨S5000x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S8x256, .f32⟩
  | .local _ .vmem, ⟨15, _⟩ => ⟨S5000x256, .f32⟩
  | .local _ .vmem, ⟨16, _⟩ => ⟨S5000x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S5000x256, .f32⟩
  | .local _ .vmem, ⟨27, _⟩ => ⟨S5000x1, .f32⟩
  | .local _ .vmem, ⟨28, _⟩ => ⟨S5000x1, .f32⟩
  | .local _ .vmem, ⟨29, _⟩ => ⟨S256x256, .f32⟩
  | .local _ .vmem, ⟨30, _⟩ => ⟨S256x256, .f32⟩
  | .local _ .vmem, ⟨31, _⟩ => ⟨S1x256, .f32⟩
  | .local _ .vmem, ⟨32, _⟩ => ⟨S5000x256, .f32⟩
  | .local _ .vmem, ⟨33, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28_0 : Ref sig .tc := ⟨.hbm, 50, rfl⟩
abbrev main_v28_1 : Ref sig .tc := ⟨.hbm, 51, rfl⟩
abbrev main_v28_2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_11 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_12 : Ref sig .tc := ⟨.hbm, 79, rfl⟩
abbrev main_v50 : Ref sig .tc := ⟨.hbm, 80, rfl⟩
abbrev main_v51 : Ref sig .tc := ⟨.hbm, 81, rfl⟩
abbrev main_c_13 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_15 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_16 : Ref sig .tc := ⟨.hbm, 100, rfl⟩
abbrev main_v67 : Ref sig .tc := ⟨.hbm, 101, rfl⟩
abbrev main_cst_17 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_18 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_call1_v0 : Ref sig .tc := ⟨.hbm, 111, rfl⟩
abbrev main_call1_cst : Ref sig .tc := ⟨.hbm, 112, rfl⟩
abbrev main_call1_v1 : Ref sig .tc := ⟨.hbm, 113, rfl⟩
abbrev main_call1_v2 : Ref sig .tc := ⟨.hbm, 114, rfl⟩
abbrev main_v75 : Ref sig .tc := ⟨.hbm, 115, rfl⟩
abbrev main_cst_19 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x256 : S_.BroadcastsInDim S50000x256 (![] : Fin 0 → Fin S50000x256.rank)
  transposes_S256x256_S256x256_1_0 : S256x256.Transposes [1, 0] S256x256
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  reduces_S5000x256_S256 : S5000x256.Reduces [0] S256
  broadcasts_S1x256_S8x256 : S1x256.Broadcasts S8x256
  inb_S8x256_S8x256_0_0 : ∀ a, (![0, 0] : Fin 2 → Nat) a + S8x256.size a ≤ S8x256.size a
  h_S8x256 : 0 < S8x256.numel
  shapeCasts_S80x256_S10x8x256 : S80x256.ShapeCasts S10x8x256
  slices_S10x8x256_S10x1x256_0_0_0 : S10x8x256.Slices ![0, 0, 0] S10x1x256
  shapeCasts_S10x1x256_S10x256 : S10x1x256.ShapeCasts S10x256
  reducesTo_S10x256_S256_d0 : S10x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  reduces_S5000x256_S5000 : S5000x256.Reduces [1] S5000
  shapeCasts_S5000_S5000x1 : S5000.ShapeCasts S5000x1
  bcast_S50000_S50000x1_0 : S50000.BroadcastsInDim S50000x1 (![0] : Fin 1 → Fin S50000x1.rank)
  bcast_S_S1x1 : S_.BroadcastsInDim S1x1 (![] : Fin 0 → Fin S1x1.rank)
  bcast_S1x1_S1x256_0_1 : S1x1.BroadcastsInDim S1x256 (![0, 1] : Fin 2 → Fin S1x256.rank)
  reducesTo_S1x256_S1_d1 : S1x256.ReducesTo [1] S1
  bcast_S1_S1x1_0 : S1.BroadcastsInDim S1x1 (![0] : Fin 1 → Fin S1x1.rank)
  scatter_S50000x1_S800000x1_S800000x1_1_0_0_1_wf : ScatterDims.WF S50000x1 S800000x1 S800000x1 [1] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  scatter_S1x256_S50000x1_S50000x256_1_0_0_1_wf : ScatterDims.WF S1x256 S50000x1 S50000x256 [1] [0] [0] 1
  scatter_S1x1_S50000x1_S50000x1_1_0_0_1_wf : ScatterDims.WF S1x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x256.size a
  hwx0_1 : ∀ i : grid0.Coords, EltTy.bits .f32 = 32 ∨ (Rect.block (s := S50000x256) S5000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S50000x256.size a
  hwx0_6 : ∀ i : grid0.Coords, EltTy.bits .f32 = 32 ∨ (Rect.block (s := S50000x256) S5000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S80x256.size a
  hwx0_7 : ∀ i : grid0.Coords, EltTy.bits .f32 = 32 ∨ (Rect.block (s := S80x256) S8x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x256.size a ≤ S80x256.size a
  hwx0_8 : ∀ i : grid0.Coords, EltTy.bits .f32 = 32 ∨ (Rect.block (s := S80x256) S8x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x256.size a ≤ S50000x256.size a
  hwx2_6 : ∀ i : grid2.Coords, EltTy.bits .f32 = 32 ∨ (Rect.block (s := S50000x256) S5000x256.size (cc2_transform_6 i) (hinb2_6 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S1x256_S50000x1_S50000x256_1_0_0_1 : ScatterDims S1x256 S50000x1 S50000x256 where
  updateWindowDims := [1]
  insertedWindowDims := [0]
  scatterDimsToOperandDims := [0]
  indexVectorDim := 1
  wf := scatter_S1x256_S50000x1_S50000x256_1_0_0_1_wf
def scatter_S1x1_S50000x1_S50000x1_1_0_0_1 : ScatterDims S1x1 S50000x1 S50000x1 where
  updateWindowDims := [1]
  insertedWindowDims := [0]
  scatterDimsToOperandDims := [0]
  indexVectorDim := 1
  wf := scatter_S1x1_S50000x1_S50000x1_1_0_0_1_wf

abbrev win0_0 : Pipeline.Window sig grid0 :=
  Pipeline.Window.ofSpec (Memref.whole main_v24) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28_0) S5000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_1) S8x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28_2) S8x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v28_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S5000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S1x1 : Shape := ⟨2, ![1, 1]⟩
abbrev S1 : Shape := ⟨1, ![1]⟩

abbrev nBuf : Space → Nat
  | .hbm => 163
  | .vmem => 0
  | .smem => 0
  | _ => 0

abbrev hbmTy0_0 (i : Nat) : BufTy := match i % 128 with
  | 0 => ⟨S50000x256, .f32⟩
  | 1 => ⟨S256x256, .f32⟩
  | 2 => ⟨S256, .f32⟩
  | 3 => ⟨S256x256, .f32⟩
  | 4 => ⟨S256x256, .f32⟩
  | 5 => ⟨S256, .f32⟩
  | 6 => ⟨S256x256, .f32⟩
  | 7 => ⟨S256, .f32⟩
  | 8 => ⟨S256, .f32⟩
  | 9 => ⟨S2x800000, .i32⟩
  | 10 => ⟨S50000, .i32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x256, .f32⟩
  | 24 => ⟨S_, .f32⟩
  | 25 => ⟨S50000x256, .f32⟩
  | 26 => ⟨S800000x1, .i32⟩
  | 27 => ⟨S50000x256, .f32⟩
  | 28 => ⟨S_, .f32⟩
  | 29 => ⟨S800000x1, .f32⟩
  | 30 => ⟨S_, .f32⟩
  | 31 => ⟨S50000x1, .f32⟩
  | 32 => ⟨S800000x1, .i32⟩
  | 33 => ⟨S50000x1, .f32⟩
  | 34 => ⟨S_, .f32⟩
  | 35 => ⟨S50000x1, .f32⟩
  | 36 => ⟨S50000x1, .i1⟩
  | 37 => ⟨S_, .f32⟩
  | 38 => ⟨S50000x1, .f32⟩
  | 39 => ⟨S50000x1, .f32⟩
  | 40 => ⟨S50000x256, .f32⟩
  | 41 => ⟨S50000x256, .f32⟩
  | 42 => ⟨S_, .f32⟩
  | 43 => ⟨S_, .f32⟩
  | 44 => ⟨S50000x256, .i1⟩
  | 45 => ⟨S50000x256, .f32⟩
  | 46 => ⟨S50000x256, .f32⟩
  | 47 => ⟨S256x256, .f32⟩
  | 48 => ⟨S50000x256, .f32⟩
  | 49 => ⟨S1x256, .f32⟩
  | 50 => ⟨S50000x256, .f32⟩
  | 51 => ⟨S50000x256, .f32⟩
  | 52 => ⟨S256x256, .f32⟩
  | 53 => ⟨S50000x256, .f32⟩
  | 54 => ⟨S50000x256, .f32⟩
  | 55 => ⟨S_, .f32⟩
  | 56 => ⟨S256, .f32⟩
  | 57 => ⟨S_, .f32⟩
  | 58 => ⟨S256, .f32⟩
  | 59 => ⟨S256, .f32⟩
  | 60 => ⟨S1x256, .f32⟩
  | 61 => ⟨S50000x256, .f32⟩
  | 62 => ⟨S50000x256, .f32⟩
  | 63 => ⟨S50000x256, .f32⟩
  | 64 => ⟨S_, .f32⟩
  | 65 => ⟨S256, .f32⟩
  | 66 => ⟨S_, .f32⟩
  | 67 => ⟨S256, .f32⟩
  | 68 => ⟨S256, .f32⟩
  | 69 => ⟨S1x256, .f32⟩
  | 70 => ⟨S50000x256, .f32⟩
  | 71 => ⟨S50000x256, .f32⟩
  | 72 => ⟨S_, .f32⟩
  | 73 => ⟨S256, .f32⟩
  | 74 => ⟨S256, .f32⟩
  | 75 => ⟨S256, .f32⟩
  | 76 => ⟨S1x256, .f32⟩
  | 77 => ⟨S50000x256, .f32⟩
  | 78 => ⟨S50000x256, .f32⟩
  | 79 => ⟨S1x256, .f32⟩
  | 80 => ⟨S50000x256, .f32⟩
  | 81 => ⟨S50000x256, .f32⟩
  | 82 => ⟨S1x256, .f32⟩
  | 83 => ⟨S50000x256, .f32⟩
  | 84 => ⟨S50000x256, .f32⟩
  | 85 => ⟨S_, .f32⟩
  | 86 => ⟨S50000x256, .f32⟩
  | 87 => ⟨S50000x256, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x256, .f32⟩
  | 97 => ⟨S_, .f32⟩
  | 98 => ⟨S50000x256, .f32⟩
  | 99 => ⟨S800000x1, .i32⟩
  | 100 => ⟨S50000x256, .f32⟩
  | 101 => ⟨S_, .f32⟩
  | 102 => ⟨S800000x1, .f32⟩
  | 103 => ⟨S_, .f32⟩
  | 104 => ⟨S50000x1, .f32⟩
  | 105 => ⟨S800000x1, .i32⟩
  | 106 => ⟨S50000x1, .f32⟩
  | 107 => ⟨S_, .f32⟩
  | 108 => ⟨S50000x1, .f32⟩
  | 109 => ⟨S50000x1, .i1⟩
  | 110 => ⟨S_, .f32⟩
  | 111 => ⟨S50000x1, .f32⟩
  | 112 => ⟨S50000x1, .f32⟩
  | 113 => ⟨S50000x256, .f32⟩
  | 114 => ⟨S50000x256, .f32⟩
  | 115 => ⟨S_, .f32⟩
  | 116 => ⟨S_, .f32⟩
  | 117 => ⟨S50000x256, .i1⟩
  | 118 => ⟨S50000x256, .f32⟩
  | 119 => ⟨S50000x256, .f32⟩
  | 120 => ⟨S256x256, .f32⟩
  | 121 => ⟨S50000x256, .f32⟩
  | 122 => ⟨S1x256, .f32⟩
  | 123 => ⟨S50000x256, .f32⟩
  | 124 => ⟨S50000x256, .f32⟩
  | 125 => ⟨S256x256, .f32⟩
  | 126 => ⟨S50000x256, .f32⟩
  | 127 => ⟨S50000x256, .f32⟩
  | _ => ⟨S50000x256, .f32⟩

abbrev hbmTy0_1 (i : Nat) : BufTy := match i % 128 with
  | 0 => ⟨S50000x256, .f32⟩
  | 1 => ⟨S_, .f32⟩
  | 2 => ⟨S50000, .f32⟩
  | 3 => ⟨S50000x1, .f32⟩
  | 4 => ⟨S50000x1, .f32⟩
  | 5 => ⟨S_, .f32⟩
  | 6 => ⟨S50000x1, .f32⟩
  | 7 => ⟨S50000x1, .f32⟩
  | 8 => ⟨S50000x256, .f32⟩
  | 9 => ⟨S50000x256, .f32⟩
  | 10 => ⟨S_, .f32⟩
  | 11 => ⟨S1x256, .f32⟩
  | 12 => ⟨S50000x1, .i32⟩
  | 13 => ⟨S1x256, .f32⟩
  | 14 => ⟨S_, .f32⟩
  | 15 => ⟨S50000x1, .f32⟩
  | 16 => ⟨S_, .f32⟩
  | 17 => ⟨S1x1, .f32⟩
  | 18 => ⟨S50000x1, .i32⟩
  | 19 => ⟨S1x1, .f32⟩
  | 20 => ⟨S_, .f32⟩
  | 21 => ⟨S1x1, .f32⟩
  | 22 => ⟨S1x1, .f32⟩
  | 23 => ⟨S1x256, .f32⟩
  | 24 => ⟨S1x256, .f32⟩
  | 25 => ⟨S1x256, .f32⟩
  | 26 => ⟨S_, .f32⟩
  | 27 => ⟨S1, .f32⟩
  | 28 => ⟨S1x1, .f32⟩
  | 29 => ⟨S1x1, .f32⟩
  | 30 => ⟨S_, .f32⟩
  | 31 => ⟨S1x1, .f32⟩
  | 32 => ⟨S1x1, .f32⟩
  | 33 => ⟨S1x256, .f32⟩
  | 34 => ⟨S1x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call1_cst : Ref sig .tc := ⟨.hbm, 85, rfl⟩
abbrev main_call1_v0 : Ref sig .tc := ⟨.hbm, 86, rfl⟩
abbrev main_v58 : Ref sig .tc := ⟨.hbm, 87, rfl⟩
abbrev main_c_11 : Ref sig .tc := ⟨.hbm, 88, rfl⟩
abbrev main_v59 : Ref sig .tc := ⟨.hbm, 89, rfl⟩
abbrev main_v60 : Ref sig .tc := ⟨.hbm, 90, rfl⟩
abbrev main_c_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_14 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_16 : Ref sig .tc := ⟨.hbm, 107, rfl⟩
abbrev main_v73 : Ref sig .tc := ⟨.hbm, 108, rfl⟩
abbrev main_v74 : Ref sig .tc := ⟨.hbm, 109, rfl⟩
abbrev main_cst_17 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_18 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call3_v0 : Ref sig .tc := ⟨.hbm, 128, rfl⟩
abbrev main_call3_cst : Ref sig .tc := ⟨.hbm, 129, rfl⟩
abbrev main_call3_v1 : Ref sig .tc := ⟨.hbm, 130, rfl⟩
abbrev main_call3_v2 : Ref sig .tc := ⟨.hbm, 131, rfl⟩
abbrev main_v88 : Ref sig .tc := ⟨.hbm, 132, rfl⟩
abbrev main_cst_19 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_20 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_21 : Ref sig .tc := ⟨.hbm, 142, rfl⟩
abbrev main_v96 : Ref sig .tc := ⟨.hbm, 143, rfl⟩
abbrev main_cst_22 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_23 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_call4_v0 : Ref sig .tc := ⟨.hbm, 153, rfl⟩
abbrev main_call4_cst : Ref sig .tc := ⟨.hbm, 154, rfl⟩
abbrev main_call4_v1 : Ref sig .tc := ⟨.hbm, 155, rfl⟩
abbrev main_call4_v2 : Ref sig .tc := ⟨.hbm, 156, rfl⟩
abbrev main_v104 : Ref sig .tc := ⟨.hbm, 157, rfl⟩
abbrev main_cst_24 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  reducesTo_S50000x256_S50000_d1 : S50000x256.ReducesTo [1] S50000
  bcast_S50000_S50000x1_0 : S50000.BroadcastsInDim S50000x1 (![0] : Fin 1 → Fin S50000x1.rank)
  bcast_S_S1x256 : S_.BroadcastsInDim S1x256 (![] : Fin 0 → Fin S1x256.rank)
  bcast_S_S1x1 : S_.BroadcastsInDim S1x1 (![] : Fin 0 → Fin S1x1.rank)
  bcast_S1x1_S1x256_0_1 : S1x1.BroadcastsInDim S1x256 (![0, 1] : Fin 2 → Fin S1x256.rank)
  reducesTo_S1x256_S1_d1 : S1x256.ReducesTo [1] S1
  bcast_S1_S1x1_0 : S1.BroadcastsInDim S1x1 (![0] : Fin 1 → Fin S1x1.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000x1_S800000x1_S800000x1_1_0_0_1_wf : ScatterDims.WF S50000x1 S800000x1 S800000x1 [1] [0] [0] 1
  dot_S50000x256_S256x256_S50000x256_1_0_0_1_n_n_wf : DotDims.WF S50000x256 S256x256 S50000x256 [1] [0] [0] [1] [] []
  scatter_S1x256_S50000x1_S50000x256_1_0_0_1_wf : ScatterDims.WF S1x256 S50000x1 S50000x256 [1] [0] [0] 1
  scatter_S1x1_S50000x1_S50000x1_1_0_0_1_wf : ScatterDims.WF S1x1 S50000x1 S50000x1 [1] [0] [0] 1

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S1x256_S50000x1_S50000x256_1_0_0_1 : ScatterDims S1x256 S50000x1 S50000x256 where
  updateWindowDims := [1]
  insertedWindowDims := [0]
  scatterDimsToOperandDims := [0]
  indexVectorDim := 1
  wf := scatter_S1x256_S50000x1_S50000x256_1_0_0_1_wf
def scatter_S1x1_S50000x1_S50000x1_1_0_0_1 : ScatterDims S1x1 S50000x1 S50000x1 where
  updateWindowDims := [1]
  insertedWindowDims := [0]
  scatterDimsToOperandDims := [0]
  indexVectorDim := 1
  wf := scatter_S1x1_S50000x1_S50000x1_1_0_0_1_wf

class Facts : Prop extends Facts₀ where

variable [Facts]
-- ==== Proof.KRun.lean ====
/-
  The idealized kernel program's run with its two results named: every weakly fair execution terminates, and the
  node embeddings and the graph embedding end at what the last boundary of the program's fold holds for them, the
  argument arrays as launched.
-/
import proofs.«130432_j89258010345478_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with both results read at the last boundary of the fold. -/
theorem run : θ_run defs (onTc (τ := τ) (main (F := F))) ⟨m, fun _ => 0, ρ⟩ (fun r => ∀ c : Dev nD,
      r.2.mem ((c.tc : Thread nD τ).loc main_v63) = W11 m ρ c (Proc.devRef .tc main_v63)
      ∧ r.2.mem ((c.tc : Thread nD τ).loc main_v79) = W11 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v63 (by decide)),
       h c _ (mem_uc main_v79 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Named

end
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.LibKeepdims.lean ====
/-
  A column kept as a unit axis, read at an index.

  A reduction that keeps its axis leaves a column `[a, 1]`: the vector `[a]` re-laid with a trailing unit axis, which
  reads at `(i, u)` the vector at `i`; and that column spread over `b` lanes reads at `(i, j)` the column at
  `(i, 0)`. Both hold for any element type.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.SageSpec.lean ====
/-
  The graph-convolution layers of this kernel, entry by entry on the extended reals, and the two laws that join the
  kernel's arrangement to the reference's.

  One layer at row r and column j is
      (∑ k, (s (r,k) · c r) · wl (k,j)  +  ∑ k, x (r,k) · wr (k,j))  +  b j ,
  s the neighbour sums, c the row's scale (one over the neighbour count, or zero), x the node's own row. The reference
  divides the neighbour sums by the count instead of multiplying by its reciprocal and masks the quotient instead of the
  reciprocal, and adds the bias before the second product: `scale_eq_quot` and commutativity of + bring one to the other,
  with no finiteness (a count clamped below by one is not zero; x · 0 = 0 on the extended reals).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- A rank-2 array of extended reals. -/
abbrev Arr (n d : ℕ) := (⟨2, ![n, d]⟩ : Shape).Idx → EReal

/-- One layer before its normalisation, at row `r` and column `j`, in the kernel's arrangement. -/
def convAt {n : ℕ} (s x : Arr n 256) (sc : Arr n 1) (wl wr : Arr 256 256) (b : Arr 1 256) (r : Fin n) (j : Fin 256) : EReal :=
  ((∑ k : Fin 256, (s (ix2 r k) * sc (ix2 r (0 : Fin 1))) * wl (ix2 k j)) + ∑ k : Fin 256, x (ix2 r k) * wr (ix2 k j))
    + b (ix2 (0 : Fin 1) j)

/-- Batch normalisation with given column statistics, then the rectifier, at `(r, j)`. -/
def bnAt {n : ℕ} (h : Arr n 256) (mu var g be : Arr 1 256) (eps zero : EReal) (r : Fin n) (j : Fin 256) : EReal :=
  max ((((h (ix2 r j) - mu (ix2 (0 : Fin 1) j)) * Ideal.rsqrt (var (ix2 (0 : Fin 1) j) + eps)) * g (ix2 (0 : Fin 1) j))
    + be (ix2 (0 : Fin 1) j)) zero

/-- A row divided by the larger of its Euclidean length and `eps`, at `(r, j)`. -/
def l2At {n : ℕ} (D : Fin n → Fin 256 → EReal) (eps : EReal) (r : Fin n) (j : Fin 256) : EReal :=
  Ideal.div (D r j) (max (Ideal.sqrt (∑ q : Fin 256, D r q * D r q)) eps)

/-- An entry of a layer reads one row of the sums, of the node features and of the scale, one column of each weight and one
    bias entry: operands that agree there give the same entry. -/
theorem convAt_congr {n n' : ℕ} (s x : Arr n 256) (sc : Arr n 1) (wl wr : Arr 256 256) (b : Arr 1 256)
    (s' x' : Arr n' 256) (sc' : Arr n' 1) (wl' wr' : Arr 256 256) (b' : Arr 1 256) (r : Fin n) (r' : Fin n') (j : Fin 256)
    (hs : ∀ k : Fin 256, s (ix2 r k) = s' (ix2 r' k)) (hx : ∀ k : Fin 256, x (ix2 r k) = x' (ix2 r' k))
    (hsc : sc (ix2 r (0 : Fin 1)) = sc' (ix2 r' (0 : Fin 1)))
    (hwl : ∀ k : Fin 256, wl (ix2 k j) = wl' (ix2 k j)) (hwr : ∀ k : Fin 256, wr (ix2 k j) = wr' (ix2 k j))
    (hb : b (ix2 (0 : Fin 1) j) = b' (ix2 (0 : Fin 1) j)) :
    convAt s x sc wl wr b r j = convAt s' x' sc' wl' wr' b' r' j := by
  unfold convAt
  simp only [hs, hx, hsc, hwl, hwr, hb]

/-- The same for the normalised, rectified entry. -/
theorem bnAt_congr {n n' : ℕ} (h : Arr n 256) (mu var g be : Arr 1 256) (h' : Arr n' 256) (mu' var' g' be' : Arr 1 256)
    (eps zero : EReal) (r : Fin n) (r' : Fin n') (j : Fin 256) (hh : h (ix2 r j) = h' (ix2 r' j))
    (hmu : mu (ix2 (0 : Fin 1) j) = mu' (ix2 (0 : Fin 1) j)) (hvar : var (ix2 (0 : Fin 1) j) = var' (ix2 (0 : Fin 1) j))
    (hg : g (ix2 (0 : Fin 1) j) = g' (ix2 (0 : Fin 1) j)) (hbe : be (ix2 (0 : Fin 1) j) = be' (ix2 (0 : Fin 1) j)) :
    bnAt h mu var g be eps zero r j = bnAt h' mu' var' g' be' eps zero r' j := by
  unfold bnAt
  rw [hh, hmu, hvar, hg, hbe]

/-- A row-normalised entry reads one row. -/
theorem l2At_congr {n n' : ℕ} (D : Fin n → Fin 256 → EReal) (D' : Fin n' → Fin 256 → EReal) (eps : EReal) (r : Fin n) (r' : Fin n')
    (j : Fin 256) (h : ∀ q : Fin 256, D r q = D' r' q) : l2At D eps r j = l2At D' eps r' j := by
  unfold l2At
  simp only [h]

/-- Multiplying by the masked reciprocal of the clamped count is the masked quotient by the clamped count. -/
theorem scale_eq_quot (s c : EReal) :
    s * (if (0 : EReal) < c then Ideal.div 1 (max c 1) else 0) = if (0 : EReal) < c then Ideal.div s (max c 1) else 0 := by
  have hne : max c 1 ≠ 0 := ne_of_gt (lt_of_lt_of_le zero_lt_one (le_max_right c 1))
  split
  · unfold Ideal.div
    rw [if_neg hne, if_neg hne, one_mul]
  · exact mul_zero s

/-- The word 0x47435000 denotes the real 50000 (exponent field 142, fraction 4411392: (2^23 + 4411392) · 2^(142 − 150) = 50000). -/
theorem ofBits_50000 : Ideal.ofBits .f32 0x47435000#32 = ((50000 : ℝ) : EReal) := by
  simp [Ideal.ofBits, Ideal.ieee, -EReal.coe_mul]; norm_num

/-- The word 0x3727C5AC denotes a positive real (about 1.0e-5). -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- A value selected where one extended real exceeds another. -/
theorem select_cmp {α : Type} (a b : EReal) (x y : α) : Scalar.select (Ideal.cmp .ogt a b) x y = if b < a then x else y := by
  unfold Scalar.select Ideal.cmp
  by_cases h : b < a <;> simp [h]

/-- The same with the zero and the one written as their binary32 words, as both programs spell them. -/
theorem agg_scalar (s c : EReal) :
    Scalar.select (Ideal.cmp .ogt c (Ideal.ofBits .f32 0x00000000#32))
        (Ideal.div s (max c (Ideal.ofBits .f32 0x3F800000#32))) (Ideal.ofBits .f32 0x00000000#32)
      = s * Scalar.select (Ideal.cmp .ogt c (Ideal.ofBits .f32 0x00000000#32))
        (Ideal.div (Ideal.ofBits .f32 0x3F800000#32) (max c (Ideal.ofBits .f32 0x3F800000#32))) (Ideal.ofBits .f32 0x00000000#32) := by
  have h1 : Ideal.ofBits .f32 0x3F800000#32 = 1 := by
    simp [Ideal.ofBits, Ideal.ieee, -EReal.coe_mul]; norm_num
  rw [Ideal.ofBits_zero_f32, h1, select_cmp, select_cmp]
  exact (scale_eq_quot s c).symm

end Cert.Sage

end
-- ==== Proof.LibSageVec.lean ====
/-
  A graph-convolution layer as a vector unit spells it, read at an entry on the extended reals: neighbour sums scaled
  row by row, two matrix products into zero accumulators, a bias row; and a row divided by the larger of its Euclidean
  length and a floor. Nothing here needs finiteness; the row count is arbitrary, the width is 256.
-/
import Idealize.ShloMosaic.PureOps.Ideal
import Idealize.ShloMosaic.PureOps.Ideal.Laws
import Idealize.ShloMosaic.Lib.ValueIdx
import Idealize.ShloMosaic.Lib.Pipeline.Value
import proofs.«130432_j89258010345478_2_alg».proof.Proof.LibMatmulPlain
import proofs.«130432_j89258010345478_2_alg».proof.Proof.LibKeepdims
import proofs.«130432_j89258010345478_2_alg».proof.Proof.LibBiasRows
import proofs.«130432_j89258010345478_2_alg».proof.Proof.LibAxisSum
import proofs.«130432_j89258010345478_2_alg».proof.Proof.SageSpec

noncomputable section

namespace Cert.LibSageVec

open Idealize.ShloMosaic Idealize.ShloMosaic.ValueIdx Cert.Sage

/-- The layer before its normalisation: `(s ⊙ c) · wl + x · wr + b` at `(r, j)`. -/
theorem conv_vec {n : ℕ} (prec : Option ContractPrecision)
    (s x : FVec Ideal ⟨2, ![n, 256]⟩ .f32) (sc : FVec Ideal ⟨2, ![n, 1]⟩ .f32)
    (wl wr : FVec Ideal ⟨2, ![256, 256]⟩ .f32) (b : FVec Ideal ⟨2, ![1, 256]⟩ .f32)
    (hb1 : (⟨2, ![n, 1]⟩ : Shape).Broadcasts ⟨2, ![n, 256]⟩) (hb2 : (⟨2, ![1, 256]⟩ : Shape).Broadcasts ⟨2, ![n, 256]⟩)
    (r : Fin n) (j : Fin 256) :
    addf (addf (FloatOps.matmul (DotDims.plain n 256 256) prec (mulf s (broadcastTo ⟨2, ![n, 256]⟩ sc hb1)) wl
          (constant ⟨2, ![n, 256]⟩ .f32 0x00000000#32))
        (FloatOps.matmul (DotDims.plain n 256 256) prec x wr (constant ⟨2, ![n, 256]⟩ .f32 0x00000000#32)))
      (broadcastTo ⟨2, ![n, 256]⟩ b hb2) (ix2 r j) = convAt s x sc wl wr b r j := by
  show (FloatOps.matmul (DotDims.plain n 256 256) prec (mulf s (broadcastTo ⟨2, ![n, 256]⟩ sc hb1)) wl
          (constant ⟨2, ![n, 256]⟩ .f32 0x00000000#32) (ix2 r j)
        + FloatOps.matmul (DotDims.plain n 256 256) prec x wr (constant ⟨2, ![n, 256]⟩ .f32 0x00000000#32) (ix2 r j))
      + broadcastTo ⟨2, ![n, 256]⟩ b hb2 (ix2 r j) = _
  rw [Cert.LibMatmulPlain.matmul_zero_apply, Cert.LibMatmulPlain.matmul_zero_apply, Cert.LibBiasRows.row_broadcast]
  unfold convAt
  refine congrArg₂ (· + ·) (congrArg₂ (· + ·) (Finset.sum_congr rfl fun k _ => ?_) rfl) rfl
  show (s (ix2 r k) * broadcastTo ⟨2, ![n, 256]⟩ sc hb1 (ix2 r k)) * wl (ix2 k j) = _
  rw [Cert.LibKeepdims.broadcastTo_a1_ab_apply]

/-- A row divided by the larger of its Euclidean length and `eps`, at `(r, j)`. -/
theorem l2_vec {n : ℕ} (D : FVec Ideal ⟨2, ![n, 256]⟩ .f32) (eps : EReal)
    (hred : Shape.Reduces ⟨2, ![n, 256]⟩ [1] ⟨1, ![n]⟩) (hφ : FKind.Formats FTy.f32)
    (hacc : (0x00000000#32 : BitVec FTy.f32.bits) = FKind.add.neutral .f32 hφ)
    (hc : (⟨1, ![n]⟩ : Shape).ShapeCasts ⟨2, ![n, 1]⟩) (hb : (⟨2, ![n, 1]⟩ : Shape).Broadcasts ⟨2, ![n, 256]⟩)
    (r : Fin n) (j : Fin 256) :
    divf D (broadcastTo ⟨2, ![n, 256]⟩ (maximumf (sqrt (shapeCast ⟨2, ![n, 1]⟩
        (multiReduction .add [1] ⟨1, ![n]⟩ (mulf D D) 0x00000000#32 hred hφ hacc) hc)) (broadcast ⟨2, ![n, 1]⟩ eps)) hb) (ix2 r j)
      = l2At (fun r j => D (ix2 r j)) eps r j := by
  show Ideal.div (D (ix2 r j)) (broadcastTo ⟨2, ![n, 256]⟩ (maximumf (sqrt (shapeCast ⟨2, ![n, 1]⟩
        (multiReduction .add [1] ⟨1, ![n]⟩ (mulf D D) 0x00000000#32 hred hφ hacc) hc)) (broadcast ⟨2, ![n, 1]⟩ eps)) hb (ix2 r j)) = _
  rw [Cert.LibKeepdims.broadcastTo_a1_ab_apply]
  show Ideal.div (D (ix2 r j)) (max (Ideal.sqrt (shapeCast ⟨2, ![n, 1]⟩
        (multiReduction .add [1] ⟨1, ![n]⟩ (mulf D D) 0x00000000#32 hred hφ hacc) hc (ix2 r (0 : Fin 1)))) eps) = _
  rw [Cert.LibKeepdims.shapeCast_a_a1_apply, Cert.LibAxisSum.sum_last]
  rfl

/-- The column totals a tile leaves in each of the rows of its statistics block: at `(u, j)` the sum of column `j`. -/
theorem colsum_vec {n a : ℕ} (P : FVec Ideal ⟨2, ![n, 256]⟩ .f32)
    (hred : Shape.Reduces ⟨2, ![n, 256]⟩ [0] ⟨1, ![256]⟩) (hφ : FKind.Formats FTy.f32)
    (hacc : (0x00000000#32 : BitVec FTy.f32.bits) = FKind.add.neutral .f32 hφ)
    (hc : (⟨1, ![256]⟩ : Shape).ShapeCasts ⟨2, ![1, 256]⟩) (hb : (⟨2, ![1, 256]⟩ : Shape).Broadcasts ⟨2, ![a, 256]⟩)
    (u : Fin a) (j : Fin 256) :
    broadcastTo ⟨2, ![a, 256]⟩ (shapeCast ⟨2, ![1, 256]⟩ (multiReduction .add [0] ⟨1, ![256]⟩ P 0x00000000#32 hred hφ hacc) hc) hb (ix2 u j)
      = ∑ p : Fin n, P (ix2 p j) := by
  rw [Cert.LibBiasRows.row_broadcast]
  refine (Cert.LibBiasRows.row_of_vector _ hc j).trans ?_
  exact Cert.LibAxisSum.sum_first P _ hred hφ hacc j

/-- Batch normalisation with given column statistics and the rectifier, as the vector unit spells them, at `(r, j)`. -/
theorem bn_vec {n : ℕ} (h : FVec Ideal ⟨2, ![n, 256]⟩ .f32) (mu var g be : FVec Ideal ⟨2, ![1, 256]⟩ .f32) (eps zero : EReal)
    (hb : (⟨2, ![1, 256]⟩ : Shape).Broadcasts ⟨2, ![n, 256]⟩) (r : Fin n) (j : Fin 256) :
    maximumf (addf (mulf (mulf (subf h (broadcastTo ⟨2, ![n, 256]⟩ mu hb))
        (broadcastTo ⟨2, ![n, 256]⟩ (rsqrt (addf var (broadcast ⟨2, ![1, 256]⟩ eps))) hb)) (broadcastTo ⟨2, ![n, 256]⟩ g hb))
        (broadcastTo ⟨2, ![n, 256]⟩ be hb)) (broadcast ⟨2, ![n, 256]⟩ zero) (ix2 r j)
      = bnAt h mu var g be eps zero r j := by
  show max ((((h (ix2 r j) - broadcastTo ⟨2, ![n, 256]⟩ mu hb (ix2 r j))
        * broadcastTo ⟨2, ![n, 256]⟩ (rsqrt (addf var (broadcast ⟨2, ![1, 256]⟩ eps))) hb (ix2 r j))
        * broadcastTo ⟨2, ![n, 256]⟩ g hb (ix2 r j)) + broadcastTo ⟨2, ![n, 256]⟩ be hb (ix2 r j)) zero = _
  rw [Cert.LibBiasRows.row_broadcast, Cert.LibBiasRows.row_broadcast, Cert.LibBiasRows.row_broadcast, Cert.LibBiasRows.row_broadcast]
  rfl

end Cert.LibSageVec

end
-- ==== Proof.KPay.lean ====
/-
  What each kernel body stores, entry by entry on the extended reals: the first layer's tile and its column totals and
  totals of squares, the normalised and rectified tile, the second layer's tile divided row by row by its length.
-/
import proofs.«130432_j89258010345478_2_alg».proof.Proof.Gen.KernelIdeal.Skeleton
import proofs.«130432_j89258010345478_2_alg».proof.Proof.LibSageVec

noncomputable section

namespace Cert.KernelIdeal.Pay

open Idealize.ShloMosaic Idealize.ShloMosaic.ValueIdx Cert.KernelIdeal Cert.KernelIdeal.Gen Cert.Sage

/-- The first layer's tile at row `p` and column `q`. -/
theorem pay1_at (v0 : Vec Ideal S5000x256 .f32) (v2 : Vec Ideal S5000x1 .f32) (v6 : Vec Ideal S256x256 .f32)
    (v9 : Vec Ideal S5000x256 .f32) (v10 : Vec Ideal S256x256 .f32) (v14 : Vec Ideal S1x256 .f32) (p : Fin 5000) (q : Fin 256) :
    k0_pay1 (F := Ideal) v0 v2 v6 v9 v10 v14 (ix2 p q) = convAt v0 v9 v2 v6 v10 v14 p q := by
  unfold k0_pay1
  simp only [shapeCast_self]
  exact Cert.LibSageVec.conv_vec (some .fp32) v0 v9 v2 v6 v10 v14 _ _ p q

/-- Every row of the tile's first statistics block holds the tile's column totals. -/
theorem pay2_at (v0 : Vec Ideal S5000x256 .f32) (v2 : Vec Ideal S5000x1 .f32) (v6 : Vec Ideal S256x256 .f32)
    (v9 : Vec Ideal S5000x256 .f32) (v10 : Vec Ideal S256x256 .f32) (v14 : Vec Ideal S1x256 .f32) (u : Fin 8) (q : Fin 256) :
    k0_pay2 (F := Ideal) v0 v2 v6 v9 v10 v14 (ix2 u q) = ∑ p : Fin 5000, k0_pay1 (F := Ideal) v0 v2 v6 v9 v10 v14 (ix2 p q) := by
  unfold k0_pay2
  simp only [shapeCast_self]
  exact Cert.LibSageVec.colsum_vec (k0_pay1 (F := Ideal) v0 v2 v6 v9 v10 v14) _ _ _ _ _ u q

/-- Every row of the second statistics block holds the column totals of the squares. -/
theorem pay3_at (v0 : Vec Ideal S5000x256 .f32) (v2 : Vec Ideal S5000x1 .f32) (v6 : Vec Ideal S256x256 .f32)
    (v9 : Vec Ideal S5000x256 .f32) (v10 : Vec Ideal S256x256 .f32) (v14 : Vec Ideal S1x256 .f32) (u : Fin 8) (q : Fin 256) :
    k0_pay3 (F := Ideal) v0 v2 v6 v9 v10 v14 (ix2 u q)
      = ∑ p : Fin 5000, k0_pay1 (F := Ideal) v0 v2 v6 v9 v10 v14 (ix2 p q) * k0_pay1 (F := Ideal) v0 v2 v6 v9 v10 v14 (ix2 p q) := by
  unfold k0_pay3
  simp only [shapeCast_self]
  exact Cert.LibSageVec.colsum_vec (mulf (k0_pay1 (F := Ideal) v0 v2 v6 v9 v10 v14) (k0_pay1 (F := Ideal) v0 v2 v6 v9 v10 v14)) _ _ _ _ _ u q

/-- The normalised, rectified tile at `(p, q)`. -/
theorem bn_at (v0 : Vec Ideal S5000x256 .f32) (v2 v7 v13 v17 : Vec Ideal S1x256 .f32) (p : Fin 5000) (q : Fin 256) :
    k1_pay1 (F := Ideal) v0 v2 v7 v13 v17 (ix2 p q)
      = bnAt v0 v7 v2 v13 v17 (Ideal.ofBits .f32 0x3727C5AC#32) (Ideal.ofBits .f32 0x00000000#32) p q := by
  unfold k1_pay1
  simp only [shapeCast_self]
  exact Cert.LibSageVec.bn_vec v0 v7 v2 v13 v17 _ _ _ p q

/-- The second layer's tile, each row divided by its length, at `(p, q)`. -/
theorem l2_at (v0 : Vec Ideal S5000x256 .f32) (v2 : Vec Ideal S5000x1 .f32) (v6 : Vec Ideal S256x256 .f32)
    (v9 : Vec Ideal S5000x256 .f32) (v11 : Vec Ideal S256x256 .f32) (v15 : Vec Ideal S1x256 .f32) (p : Fin 5000) (q : Fin 256) :
    k2_pay1 (F := Ideal) v0 v2 v6 v9 v11 v15 (ix2 p q)
      = l2At (convAt v0 v9 v2 v6 v11 v15) (Ideal.ofBits .f32 0x2B8CBCCC#32) p q := by
  unfold k2_pay1
  simp only [shapeCast_self]
  refine (Cert.LibSageVec.l2_vec _ _ _ _ _ _ _ p q).trans ?_
  exact congrArg (fun D => l2At D (Ideal.ofBits .f32 0x2B8CBCCC#32) p q)
    (funext fun r => funext fun j => Cert.LibSageVec.conv_vec (some .fp32) v0 v9 v2 v6 v11 v15 _ _ r j)

end Cert.KernelIdeal.Pay

end
-- ==== Proof.KBlocks.lean ====
/-
  From tiles to arrays. Each of the three kernels runs over ten tiles of 5000 rows; an input tile is rows 5000·t … 5000·t + 4999
  of its array (the weights, the bias row and the statistics rows are read whole at every tile), and what a tile writes
  back is the matching rows of ONE function of the arrays the kernel was handed, so the written array is that function:
  the first layer before normalisation with, per tile, its column totals and totals of squares repeated over eight rows;
  the normalised, rectified layer; the second layer with each row divided by its length.
-/
import proofs.«130432_j89258010345478_2_alg».proof.Proof.Gen.KernelIdeal.Frame
import proofs.«130432_j89258010345478_2_alg».proof.Proof.KPay
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- Row `p` of tile number `tv`, tiles of 5000 rows. -/
def rowAt (tv : ℕ) (h : tv < 10) (p : Fin 5000) : Fin 50000 := ⟨tv * 5000 + p.val, by have := p.isLt; omega⟩

/-- Row `u` of statistics block `tv`, blocks of 8 rows. -/
def statRow (tv : ℕ) (h : tv < 10) (u : Fin 8) : Fin 80 := ⟨tv * 8 + u.val, by have := u.isLt; omega⟩

/-! ## Kernel 0 -/

theorem lt0 (t : Fin cfg0.N) : t.val < 10 := lt_of_lt_of_eq t.isLt (show cfg0.N = 10 from N_0)

/-- The printed index maps, decided over the grid: a tiled window's block number is the tile's on the row axis and zero on the
    column axis; a window read whole stays at block zero. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0 :=
  (by decide +kernel : ∀ t : Fin grid0.N, _)

theorem in0_0 (t : Fin cfg0.N) (p : Fin 5000) (k : Fin 256) :
    (iblk0 V c 0 t : Vec Ideal S5000x256 .f32) (ix2 p k) = (V c main_v24 : S50000x256.Idx → EReal) (ix2 (rowAt t.val (lt0 t) p) k) := by
  unfold iblk0
  rw [View.read_apply]
  show (V c main_v24 : S50000x256.Idx → EReal) _ = _
  refine congrArg (V c main_v24 : S50000x256.Idx → EReal) (funext fun a => Fin.ext ?_)
  match a with
  | ⟨0, _⟩ => show win0_0.index t (0 : Fin 2) * 5000 + 1 * p.val = t.val * 5000 + p.val; rw [(idx0 t).1]; omega
  | ⟨1, _⟩ => show win0_0.index t (1 : Fin 2) * 256 + 1 * k.val = k.val; rw [(idx0 t).2.1]; omega

theorem in0_1 (t : Fin cfg0.N) (p : Fin 5000) (k : Fin 256) :
    (iblk0 V c 1 t : Vec Ideal S5000x256 .f32) (ix2 p k) = (V c main_arg0 : S50000x256.Idx → EReal) (ix2 (rowAt t.val (lt0 t) p) k) := by
  unfold iblk0
  rw [View.read_apply]
  show (V c main_arg0 : S50000x256.Idx → EReal) _ = _
  refine congrArg (V c main_arg0 : S50000x256.Idx → EReal) (funext fun a => Fin.ext ?_)
  match a with
  | ⟨0, _⟩ => show win0_1.index t (0 : Fin 2) * 5000 + 1 * p.val = t.val * 5000 + p.val; rw [(idx0 t).2.2.1]; omega
  | ⟨1, _⟩ => show win0_1.index t (1 : Fin 2) * 256 + 1 * k.val = k.val; rw [(idx0 t).2.2.2.1]; omega

theorem in0_2 (t : Fin cfg0.N) (p : Fin 5000) (k : Fin 1) :
    (iblk0 V c 2 t : Vec Ideal S5000x1 .f32) (ix2 p k) = (V c main_v14 : S50000x1.Idx → EReal) (ix2 (rowAt t.val (lt0 t) p) k) := by
  unfold iblk0
  rw [View.read_apply]
  show (V c main_v14 : S50000x1.Idx → EReal) _ = _
  refine congrArg (V c main_v14 : S50000x1.Idx → EReal) (funext fun a => Fin.ext ?_)
  match a with
  | ⟨0, _⟩ => show win0_2.index t (0 : Fin 2) * 5000 + 1 * p.val = t.val * 5000 + p.val; rw [(idx0 t).2.2.2.2.1]; omega
  | ⟨1, _⟩ => show win0_2.index t (1 : Fin 2) * 1 + 1 * k.val = k.val; rw [(idx0 t).2.2.2.2.2.1]; omega

theorem in0_3 (t : Fin cfg0.N) (p : Fin 256) (k : Fin 256) :
    (iblk0 V c 3 t : Vec Ideal S256x256 .f32) (ix2 p k) = (V c main_v25 : S256x256.Idx → EReal) (ix2 p k) := by
  unfold iblk0
  rw [View.read_apply]
  show (V c main_v25 : S256x256.Idx → EReal) _ = _
  refine congrArg (V c main_v25 : S256x256.Idx → EReal) (funext fun a => Fin.ext ?_)
  match a with
  | ⟨0, _⟩ => show win0_3.index t (0 : Fin 2) * 256 + 1 * p.val = p.val; rw [(idx0 t).2.2.2.2.2.2.1]; omega
  | ⟨1, _⟩ => show win0_3.index t (1 : Fin 2) * 256 + 1 * k.val = k.val; rw [(idx0 t).2.2.2.2.2.2.2.1]; omega

theorem in0_4 (t : Fin cfg0.N) (p : Fin 256) (k : Fin 256) :
    (iblk0 V c 4 t : Vec Ideal S256x256 .f32) (ix2 p k) = (V c main_v26 : S256x256.Idx → EReal) (ix2 p k) := by
  unfold iblk0
  rw [View.read_apply]
  show (V c main_v26 : S256x256.Idx → EReal) _ = _
  refine congrArg (V c main_v26 : S256x256.Idx → EReal) (funext fun a => Fin.ext ?_)
  match a with
  | ⟨0, _⟩ => show win0_4.index t (0 : Fin 2) * 256 + 1 * p.val = p.val; rw [(idx0 t).2.2.2.2.2.2.2.2.1]; omega
  | ⟨1, _⟩ => show win0_4.index t (1 : Fin 2) * 256 + 1 * k.val = k.val; rw [(idx0 t).2.2.2.2.2.2.2.2.2.1]; omega

theorem in0_5 (t : Fin cfg0.N) (p : Fin 1) (k : Fin 256) :
    (iblk0 V c 5 t : Vec Ideal S1x256 .f32) (ix2 p k) = (V c main_v27 : S1x256.Idx → EReal) (ix2 p k) := by
  unfold iblk0
  rw [View.read_apply]
  show (V c main_v27 : S1x256.Idx → EReal) _ = _
  refine congrArg (V c main_v27 : S1x256.Idx → EReal) (funext fun a => Fin.ext ?_)
  match a with
  | ⟨0, _⟩ => show win0_5.index t (0 : Fin 2) * 1 + 1 * p.val = p.val; rw [(idx0 t).2.2.2.2.2.2.2.2.2.2.1]; omega
  | ⟨1, _⟩ => show win0_5.index t (1 : Fin 2) * 256 + 1 * k.val = k.val; rw [(idx0 t).2.2.2.2.2.2.2.2.2.2.2.1]; omega

theorem emb0_6 (t : Fin cfg0.N) (p : Fin 5000) (q : Fin 256) :
    ((cfg0.win 6).blk t).view.emb (ix2 p q : S5000x256.Idx) = (ix2 (rowAt t.val (lt0 t) p) q : S50000x256.Idx) := by
  refine funext fun a => Fin.ext ?_
  match a with
  | ⟨0, _⟩ => show win0_6.index t (0 : Fin 2) * 5000 + 1 * p.val = t.val * 5000 + p.val; rw [(idx0 t).2.2.2.2.2.2.2.2.2.2.2.2.1]; omega
  | ⟨1, _⟩ => show win0_6.index t (1 : Fin 2) * 256 + 1 * q.val = q.val; rw [(idx0 t).2.2.2.2.2.2.2.2.2.2.2.2.2.1]; omega

theorem mem0_6 (t : Fin cfg0.N) (i : S50000x256.Idx) :
    i ∈ ((cfg0.win 6).blk t).view.set ↔ ∀ a : Fin 2, win0_6.index t a * S5000x256.size a ≤ (i a).val ∧ (i a).val < win0_6.index t a * S5000x256.size a + S5000x256.size a := by
  show i ∈ ((View.whole main_v28_0).slice (win0_6.rect t)).set ↔ _
  rw [View.set_slice_whole, Rect.mem_set_unit]
  exact Iff.rfl

/-- Every row of the array is in the block of the tile it belongs to. -/
theorem cover0_6 (i : S50000x256.Idx) : ∃ t : Fin cfg0.N, (cfg0.win 6).flush t = true ∧ i ∈ ((cfg0.win 6).blk t).view.set := by
  have hi0 : (i 0).val < 50000 := idx2_lt0 i
  have hi1 : (i 1).val < 256 := idx2_lt1 i
  refine ⟨⟨(i 0).val / 5000, by rw [show cfg0.N = 10 from N_0]; omega⟩, flush0_6 _, ?_⟩
  rw [mem0_6]
  intro a
  match a with
  | ⟨0, _⟩ =>
    show win0_6.index _ (0 : Fin 2) * 5000 ≤ (i 0).val ∧ (i 0).val < win0_6.index _ (0 : Fin 2) * 5000 + 5000
    rw [(idx0 _).2.2.2.2.2.2.2.2.2.2.2.2.1]
    show (i 0).val / 5000 * 5000 ≤ (i 0).val ∧ (i 0).val < (i 0).val / 5000 * 5000 + 5000
    omega
  | ⟨1, _⟩ =>
    show win0_6.index _ (1 : Fin 2) * 256 ≤ (i 1).val ∧ (i 1).val < win0_6.index _ (1 : Fin 2) * 256 + 256
    rw [(idx0 _).2.2.2.2.2.2.2.2.2.2.2.2.2.1]
    omega

theorem emb0_7 (t : Fin cfg0.N) (p : Fin 8) (q : Fin 256) :
    ((cfg0.win 7).blk t).view.emb (ix2 p q : S8x256.Idx) = (ix2 (statRow t.val (lt0 t) p) q : S80x256.Idx) := by
  refine funext fun a => Fin.ext ?_
  match a with
  | ⟨0, _⟩ => show win0_7.index t (0 : Fin 2) * 8 + 1 * p.val = t.val * 8 + p.val; rw [(idx0 t).2.2.2.2.2.2.2.2.2.2.2.2.2.2.1]; omega
  | ⟨1, _⟩ => show win0_7.index t (1 : Fin 2) * 256 + 1 * q.val = q.val; rw [(idx0 t).2.2.2.2.2.2.2.2.2.2.2.2.2.2.2.1]; omega

theorem mem0_7 (t : Fin cfg0.N) (i : S80x256.Idx) :
    i ∈ ((cfg0.win 7).blk t).view.set ↔ ∀ a : Fin 2, win0_7.index t a * S8x256.size a ≤ (i a).val ∧ (i a).val < win0_7.index t a * S8x256.size a + S8x256.size a := by
  show i ∈ ((View.whole main_v28_1).slice (win0_7.rect t)).set ↔ _
  rw [View.set_slice_whole, Rect.mem_set_unit]
  exact Iff.rfl

/-- Every row of the array is in the block of the tile it belongs to. -/
theorem cover0_7 (i : S80x256.Idx) : ∃ t : Fin cfg0.N, (cfg0.win 7).flush t = true ∧ i ∈ ((cfg0.win 7).blk t).view.set := by
  have hi0 : (i 0).val < 80 := idx2_lt0 i
  have hi1 : (i 1).val < 256 := idx2_lt1 i
  refine ⟨⟨(i 0).val / 8, by rw [show cfg0.N = 10 from N_0]; omega⟩, flush0_7 _, ?_⟩
  rw [mem0_7]
  intro a
  match a with
  | ⟨0, _⟩ =>
    show win0_7.index _ (0 : Fin 2) * 8 ≤ (i 0).val ∧ (i 0).val < win0_7.index _ (0 : Fin 2) * 8 + 8
    rw [(idx0 _).2.2.2.2.2.2.2.2.2.2.2.2.2.2.1]
    show (i 0).val / 8 * 8 ≤ (i 0).val ∧ (i 0).val < (i 0).val / 8 * 8 + 8
    omega
  | ⟨1, _⟩ =>
    show win0_7.index _ (1 : Fin 2) * 256 ≤ (i 1).val ∧ (i 1).val < win0_7.index _ (1 : Fin 2) * 256 + 256
    rw [(idx0 _).2.2.2.2.2.2.2.2.2.2.2.2.2.2.2.1]
    omega

theorem emb0_8 (t : Fin cfg0.N) (p : Fin 8) (q : Fin 256) :
    ((cfg0.win 8).blk t).view.emb (ix2 p q : S8x256.Idx) = (ix2 (statRow t.val (lt0 t) p) q : S80x256.Idx) := by
  refine funext fun a => Fin.ext ?_
  match a with
  | ⟨0, _⟩ => show win0_8.index t (0 : Fin 2) * 8 + 1 * p.val = t.val * 8 + p.val; rw [(idx0 t).2.2.2.2.2.2.2.2.2.2.2.2.2.2.2.2.1]; omega
  | ⟨1, _⟩ => show win0_8.index t (1 : Fin 2) * 256 + 1 * q.val = q.val; rw [(idx0 t).2.2.2.2.2.2.2.2.2.2.2.2.2.2.2.2.2]; omega

theorem mem0_8 (t : Fin cfg0.N) (i : S80x256.Idx) :
    i ∈ ((cfg0.win 8).blk t).view.set ↔ ∀ a : Fin 2, win0_8.index t a * S8x256.size a ≤ (i a).val ∧ (i a).val < win0_8.index t a * S8x256.size a + S8x256.size a := by
  show i ∈ ((View.whole main_v28_2).slice (win0_8.rect t)).set ↔ _
  rw [View.set_slice_whole, Rect.mem_set_unit]
  exact Iff.rfl

/-- Every row of the array is in the block of the tile it belongs to. -/
theorem cover0_8 (i : S80x256.Idx) : ∃ t : Fin cfg0.N, (cfg0.win 8).flush t = true ∧ i ∈ ((cfg0.win 8).blk t).view.set := by
  have hi0 : (i 0).val < 80 := idx2_lt0 i
  have hi1 : (i 1).val < 256 := idx2_lt1 i
  refine ⟨⟨(i 0).val / 8, by rw [show cfg0.N = 10 from N_0]; omega⟩, flush0_8 _, ?_⟩
  rw [mem0_8]
  intro a
  match a with
  | ⟨0, _⟩ =>
    show win0_8.index _ (0 : Fin 2) * 8 ≤ (i 0).val ∧ (i 0).val < win0_8.index _ (0 : Fin 2) * 8 + 8
    rw [(idx0 _).2.2.2.2.2.2.2.2.2.2.2.2.2.2.2.2.1]
    show (i 0).val / 8 * 8 ≤ (i 0).val ∧ (i 0).val < (i 0).val / 8 * 8 + 8
    omega
  | ⟨1, _⟩ =>
    show win0_8.index _ (1 : Fin 2) * 256 ≤ (i 1).val ∧ (i 1).val < win0_8.index _ (1 : Fin 2) * 256 + 256
    rw [(idx0 _).2.2.2.2.2.2.2.2.2.2.2.2.2.2.2.2.2]
    omega

/-! ## Kernel 1 -/

theorem lt1 (t : Fin cfg1.N) : t.val < 10 := lt_of_lt_of_eq t.isLt (show cfg1.N = 10 from N_1)

/-- The printed index maps, decided over the grid: a tiled window's block number is the tile's on the row axis and zero on the
    column axis; a window read whole stays at block zero. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

theorem in1_0 (t : Fin cfg1.N) (p : Fin 5000) (k : Fin 256) :
    (iblk1 V c 0 t : Vec Ideal S5000x256 .f32) (ix2 p k) = (V c main_v28_0 : S50000x256.Idx → EReal) (ix2 (rowAt t.val (lt1 t) p) k) := by
  unfold iblk1
  rw [View.read_apply]
  show (V c main_v28_0 : S50000x256.Idx → EReal) _ = _
  refine congrArg (V c main_v28_0 : S50000x256.Idx → EReal) (funext fun a => Fin.ext ?_)
  match a with
  | ⟨0, _⟩ => show win1_0.index t (0 : Fin 2) * 5000 + 1 * p.val = t.val * 5000 + p.val; rw [(idx1 t).1]; omega
  | ⟨1, _⟩ => show win1_0.index t (1 : Fin 2) * 256 + 1 * k.val = k.val; rw [(idx1 t).2.1]; omega

theorem in1_1 (t : Fin cfg1.N) (p : Fin 1) (k : Fin 256) :
    (iblk1 V c 1 t : Vec Ideal S1x256 .f32) (ix2 p k) = (V c main_v40 : S1x256.Idx → EReal) (ix2 p k) := by
  unfold iblk1
  rw [View.read_apply]
  show (V c main_v40 : S1x256.Idx → EReal) _ = _
  refine congrArg (V c main_v40 : S1x256.Idx → EReal) (funext fun a => Fin.ext ?_)
  match a with
  | ⟨0, _⟩ => show win1_1.index t (0 : Fin 2) * 1 + 1 * p.val = p.val; rw [(idx1 t).2.2.1]; omega
  | ⟨1, _⟩ => show win1_1.index t (1 : Fin 2) * 256 + 1 * k.val = k.val; rw [(idx1 t).2.2.2.1]; omega

theorem in1_2 (t : Fin cfg1.N) (p : Fin 1) (k : Fin 256) :
    (iblk1 V c 2 t : Vec Ideal S1x256 .f32) (ix2 p k) = (V c main_v46 : S1x256.Idx → EReal) (ix2 p k) := by
  unfold iblk1
  rw [View.read_apply]
  show (V c main_v46 : S1x256.Idx → EReal) _ = _
  refine congrArg (V c main_v46 : S1x256.Idx → EReal) (funext fun a => Fin.ext ?_)
  match a with
  | ⟨0, _⟩ => show win1_2.index t (0 : Fin 2) * 1 + 1 * p.val = p.val; rw [(idx1 t).2.2.2.2.1]; omega
  | ⟨1, _⟩ => show win1_2.index t (1 : Fin 2) * 256 + 1 * k.val = k.val; rw [(idx1 t).2.2.2.2.2.1]; omega

theorem in1_3 (t : Fin cfg1.N) (p : Fin 1) (k : Fin 256) :
    (iblk1 V c 3 t : Vec Ideal S1x256 .f32) (ix2 p k) = (V c main_v47 : S1x256.Idx → EReal) (ix2 p k) := by
  unfold iblk1
  rw [View.read_apply]
  show (V c main_v47 : S1x256.Idx → EReal) _ = _
  refine congrArg (V c main_v47 : S1x256.Idx → EReal) (funext fun a => Fin.ext ?_)
  match a with
  | ⟨0, _⟩ => show win1_3.index t (0 : Fin 2) * 1 + 1 * p.val = p.val; rw [(idx1 t).2.2.2.2.2.2.1]; omega
  | ⟨1, _⟩ => show win1_3.index t (1 : Fin 2) * 256 + 1 * k.val = k.val; rw [(idx1 t).2.2.2.2.2.2.2.1]; omega

theorem in1_4 (t : Fin cfg1.N) (p : Fin 1) (k : Fin 256) :
    (iblk1 V c 4 t : Vec Ideal S1x256 .f32) (ix2 p k) = (V c main_v48 : S1x256.Idx → EReal) (ix2 p k) := by
  unfold iblk1
  rw [View.read_apply]
  show (V c main_v48 : S1x256.Idx → EReal) _ = _
  refine congrArg (V c main_v48 : S1x256.Idx → EReal) (funext fun a => Fin.ext ?_)
  match a with
  | ⟨0, _⟩ => show win1_4.index t (0 : Fin 2) * 1 + 1 * p.val = p.val; rw [(idx1 t).2.2.2.2.2.2.2.2.1]; omega
  | ⟨1, _⟩ => show win1_4.index t (1 : Fin 2) * 256 + 1 * k.val = k.val; rw [(idx1 t).2.2.2.2.2.2.2.2.2.1]; omega

theorem emb1_5 (t : Fin cfg1.N) (p : Fin 5000) (q : Fin 256) :
    ((cfg1.win 5).blk t).view.emb (ix2 p q : S5000x256.Idx) = (ix2 (rowAt t.val (lt1 t) p) q : S50000x256.Idx) := by
  refine funext fun a => Fin.ext ?_
  match a with
  | ⟨0, _⟩ => show win1_5.index t (0 : Fin 2) * 5000 + 1 * p.val = t.val * 5000 + p.val; rw [(idx1 t).2.2.2.2.2.2.2.2.2.2.1]; omega
  | ⟨1, _⟩ => show win1_5.index t (1 : Fin 2) * 256 + 1 * q.val = q.val; rw [(idx1 t).2.2.2.2.2.2.2.2.2.2.2]; omega

theorem mem1_5 (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v49).slice (win1_5.rect t)).set ↔ _
  rw [View.set_slice_whole, Rect.mem_set_unit]
  exact Iff.rfl

/-- Every row of the array is in the block of the tile it belongs to. -/
theorem cover1_5 (i : S50000x256.Idx) : ∃ t : Fin cfg1.N, (cfg1.win 5).flush t = true ∧ i ∈ ((cfg1.win 5).blk t).view.set := by
  have hi0 : (i 0).val < 50000 := idx2_lt0 i
  have hi1 : (i 1).val < 256 := idx2_lt1 i
  refine ⟨⟨(i 0).val / 5000, by rw [show cfg1.N = 10 from N_1]; omega⟩, flush1_5 _, ?_⟩
  rw [mem1_5]
  intro a
  match a with
  | ⟨0, _⟩ =>
    show win1_5.index _ (0 : Fin 2) * 5000 ≤ (i 0).val ∧ (i 0).val < win1_5.index _ (0 : Fin 2) * 5000 + 5000
    rw [(idx1 _).2.2.2.2.2.2.2.2.2.2.1]
    show (i 0).val / 5000 * 5000 ≤ (i 0).val ∧ (i 0).val < (i 0).val / 5000 * 5000 + 5000
    omega
  | ⟨1, _⟩ =>
    show win1_5.index _ (1 : Fin 2) * 256 ≤ (i 1).val ∧ (i 1).val < win1_5.index _ (1 : Fin 2) * 256 + 256
    rw [(idx1 _).2.2.2.2.2.2.2.2.2.2.2]
    omega

/-! ## Kernel 2 -/

theorem lt2 (t : Fin cfg2.N) : t.val < 10 := lt_of_lt_of_eq t.isLt (show cfg2.N = 10 from N_2)

/-- The printed index maps, decided over the grid: a tiled window's block number is the tile's on the row axis and zero on the
    column axis; a window read whole stays at block zero. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

theorem in2_0 (t : Fin cfg2.N) (p : Fin 5000) (k : Fin 256) :
    (iblk2 V c 0 t : Vec Ideal S5000x256 .f32) (ix2 p k) = (V c main_v59 : S50000x256.Idx → EReal) (ix2 (rowAt t.val (lt2 t) p) k) := by
  unfold iblk2
  rw [View.read_apply]
  show (V c main_v59 : S50000x256.Idx → EReal) _ = _
  refine congrArg (V c main_v59 : S50000x256.Idx → EReal) (funext fun a => Fin.ext ?_)
  match a with
  | ⟨0, _⟩ => show win2_0.index t (0 : Fin 2) * 5000 + 1 * p.val = t.val * 5000 + p.val; rw [(idx2 t).1]; omega
  | ⟨1, _⟩ => show win2_0.index t (1 : Fin 2) * 256 + 1 * k.val = k.val; rw [(idx2 t).2.1]; omega

theorem in2_1 (t : Fin cfg2.N) (p : Fin 5000) (k : Fin 256) :
    (iblk2 V c 1 t : Vec Ideal S5000x256 .f32) (ix2 p k) = (V c main_v49 : S50000x256.Idx → EReal) (ix2 (rowAt t.val (lt2 t) p) k) := by
  unfold iblk2
  rw [View.read_apply]
  show (V c main_v49 : S50000x256.Idx → EReal) _ = _
  refine congrArg (V c main_v49 : S50000x256.Idx → EReal) (funext fun a => Fin.ext ?_)
  match a with
  | ⟨0, _⟩ => show win2_1.index t (0 : Fin 2) * 5000 + 1 * p.val = t.val * 5000 + p.val; rw [(idx2 t).2.2.1]; omega
  | ⟨1, _⟩ => show win2_1.index t (1 : Fin 2) * 256 + 1 * k.val = k.val; rw [(idx2 t).2.2.2.1]; omega

theorem in2_2 (t : Fin cfg2.N) (p : Fin 5000) (k : Fin 1) :
    (iblk2 V c 2 t : Vec Ideal S5000x1 .f32) (ix2 p k) = (V c main_v14 : S50000x1.Idx → EReal) (ix2 (rowAt t.val (lt2 t) p) k) := by
  unfold iblk2
  rw [View.read_apply]
  show (V c main_v14 : S50000x1.Idx → EReal) _ = _
  refine congrArg (V c main_v14 : S50000x1.Idx → EReal) (funext fun a => Fin.ext ?_)
  match a with
  | ⟨0, _⟩ => show win2_2.index t (0 : Fin 2) * 5000 + 1 * p.val = t.val * 5000 + p.val; rw [(idx2 t).2.2.2.2.1]; omega
  | ⟨1, _⟩ => show win2_2.index t (1 : Fin 2) * 1 + 1 * k.val = k.val; rw [(idx2 t).2.2.2.2.2.1]; omega

theorem in2_3 (t : Fin cfg2.N) (p : Fin 256) (k : Fin 256) :
    (iblk2 V c 3 t : Vec Ideal S256x256 .f32) (ix2 p k) = (V c main_v60 : S256x256.Idx → EReal) (ix2 p k) := by
  unfold iblk2
  rw [View.read_apply]
  show (V c main_v60 : S256x256.Idx → EReal) _ = _
  refine congrArg (V c main_v60 : S256x256.Idx → EReal) (funext fun a => Fin.ext ?_)
  match a with
  | ⟨0, _⟩ => show win2_3.index t (0 : Fin 2) * 256 + 1 * p.val = p.val; rw [(idx2 t).2.2.2.2.2.2.1]; omega
  | ⟨1, _⟩ => show win2_3.index t (1 : Fin 2) * 256 + 1 * k.val = k.val; rw [(idx2 t).2.2.2.2.2.2.2.1]; omega

theorem in2_4 (t : Fin cfg2.N) (p : Fin 256) (k : Fin 256) :
    (iblk2 V c 4 t : Vec Ideal S256x256 .f32) (ix2 p k) = (V c main_v61 : S256x256.Idx → EReal) (ix2 p k) := by
  unfold iblk2
  rw [View.read_apply]
  show (V c main_v61 : S256x256.Idx → EReal) _ = _
  refine congrArg (V c main_v61 : S256x256.Idx → EReal) (funext fun a => Fin.ext ?_)
  match a with
  | ⟨0, _⟩ => show win2_4.index t (0 : Fin 2) * 256 + 1 * p.val = p.val; rw [(idx2 t).2.2.2.2.2.2.2.2.1]; omega
  | ⟨1, _⟩ => show win2_4.index t (1 : Fin 2) * 256 + 1 * k.val = k.val; rw [(idx2 t).2.2.2.2.2.2.2.2.2.1]; omega

theorem in2_5 (t : Fin cfg2.N) (p : Fin 1) (k : Fin 256) :
    (iblk2 V c 5 t : Vec Ideal S1x256 .f32) (ix2 p k) = (V c main_v62 : S1x256.Idx → EReal) (ix2 p k) := by
  unfold iblk2
  rw [View.read_apply]
  show (V c main_v62 : S1x256.Idx → EReal) _ = _
  refine congrArg (V c main_v62 : S1x256.Idx → EReal) (funext fun a => Fin.ext ?_)
  match a with
  | ⟨0, _⟩ => show win2_5.index t (0 : Fin 2) * 1 + 1 * p.val = p.val; rw [(idx2 t).2.2.2.2.2.2.2.2.2.2.1]; omega
  | ⟨1, _⟩ => show win2_5.index t (1 : Fin 2) * 256 + 1 * k.val = k.val; rw [(idx2 t).2.2.2.2.2.2.2.2.2.2.2.1]; omega

theorem emb2_6 (t : Fin cfg2.N) (p : Fin 5000) (q : Fin 256) :
    ((cfg2.win 6).blk t).view.emb (ix2 p q : S5000x256.Idx) = (ix2 (rowAt t.val (lt2 t) p) q : S50000x256.Idx) := by
  refine funext fun a => Fin.ext ?_
  match a with
  | ⟨0, _⟩ => show win2_6.index t (0 : Fin 2) * 5000 + 1 * p.val = t.val * 5000 + p.val; rw [(idx2 t).2.2.2.2.2.2.2.2.2.2.2.2.1]; omega
  | ⟨1, _⟩ => show win2_6.index t (1 : Fin 2) * 256 + 1 * q.val = q.val; rw [(idx2 t).2.2.2.2.2.2.2.2.2.2.2.2.2]; omega

theorem mem2_6 (t : Fin cfg2.N) (i : S50000x256.Idx) :
    i ∈ ((cfg2.win 6).blk t).view.set ↔ ∀ a : Fin 2, win2_6.index t a * S5000x256.size a ≤ (i a).val ∧ (i a).val < win2_6.index t a * S5000x256.size a + S5000x256.size a := by
  show i ∈ ((View.whole main_v63).slice (win2_6.rect t)).set ↔ _
  rw [View.set_slice_whole, Rect.mem_set_unit]
  exact Iff.rfl

/-- Every row of the array is in the block of the tile it belongs to. -/
theorem cover2_6 (i : S50000x256.Idx) : ∃ t : Fin cfg2.N, (cfg2.win 6).flush t = true ∧ i ∈ ((cfg2.win 6).blk t).view.set := by
  have hi0 : (i 0).val < 50000 := idx2_lt0 i
  have hi1 : (i 1).val < 256 := idx2_lt1 i
  refine ⟨⟨(i 0).val / 5000, by rw [show cfg2.N = 10 from N_2]; omega⟩, flush2_6 _, ?_⟩
  rw [mem2_6]
  intro a
  match a with
  | ⟨0, _⟩ =>
    show win2_6.index _ (0 : Fin 2) * 5000 ≤ (i 0).val ∧ (i 0).val < win2_6.index _ (0 : Fin 2) * 5000 + 5000
    rw [(idx2 _).2.2.2.2.2.2.2.2.2.2.2.2.1]
    show (i 0).val / 5000 * 5000 ≤ (i 0).val ∧ (i 0).val < (i 0).val / 5000 * 5000 + 5000
    omega
  | ⟨1, _⟩ =>
    show win2_6.index _ (1 : Fin 2) * 256 ≤ (i 1).val ∧ (i 1).val < win2_6.index _ (1 : Fin 2) * 256 + 256
    rw [(idx2 _).2.2.2.2.2.2.2.2.2.2.2.2.2]
    omega

/-! ## The written arrays -/

section Arrays

/-- The first layer before normalisation, of the arrays kernel 0 is handed. -/
def pre0 : S50000x256.Idx → EReal := fun i =>
  convAt (V c main_v24 : S50000x256.Idx → EReal) (V c main_arg0 : S50000x256.Idx → EReal) (V c main_v14 : S50000x1.Idx → EReal)
    (V c main_v25 : S256x256.Idx → EReal) (V c main_v26 : S256x256.Idx → EReal) (V c main_v27 : S1x256.Idx → EReal) (i 0) (i 1)

/-- Row `8·t + u` of the first statistics array of a layer `P`: tile `t`'s column totals. -/
def tileSums (P : S50000x256.Idx → EReal) : S80x256.Idx → EReal := fun i =>
  ∑ p : Fin 5000, P (ix2 (rowAt ((i 0).val / 8) (by have := idx2_lt0 i; omega) p) (i 1))

/-- Row `8·t + u` of the second: tile `t`'s column totals of squares. -/
def tileSumsq (P : S50000x256.Idx → EReal) : S80x256.Idx → EReal := fun i =>
  ∑ p : Fin 5000, P (ix2 (rowAt ((i 0).val / 8) (by have := idx2_lt0 i; omega) p) (i 1))
    * P (ix2 (rowAt ((i 0).val / 8) (by have := idx2_lt0 i; omega) p) (i 1))

/-- The normalised, rectified layer, of the arrays kernel 1 is handed. -/
def bn1 : S50000x256.Idx → EReal := fun i =>
  bnAt (V c main_v28_0 : S50000x256.Idx → EReal) (V c main_v40 : S1x256.Idx → EReal) (V c main_v46 : S1x256.Idx → EReal)
    (V c main_v47 : S1x256.Idx → EReal) (V c main_v48 : S1x256.Idx → EReal)
    (Ideal.ofBits .f32 0x3727C5AC#32) (Ideal.ofBits .f32 0x00000000#32) (i 0) (i 1)

/-- The second layer with each row divided by its length, of the arrays kernel 2 is handed. -/
def emb2 : S50000x256.Idx → EReal := fun i =>
  l2At (convAt (V c main_v59 : S50000x256.Idx → EReal) (V c main_v49 : S50000x256.Idx → EReal) (V c main_v14 : S50000x1.Idx → EReal)
    (V c main_v60 : S256x256.Idx → EReal) (V c main_v61 : S256x256.Idx → EReal) (V c main_v62 : S1x256.Idx → EReal))
    (Ideal.ofBits .f32 0x2B8CBCCC#32) (i 0) (i 1)

/-- A tile of kernel 0's first output is the matching rows of `pre0`. -/
theorem tile0 (t : Fin cfg0.N) (p : Fin 5000) (q : Fin 256) :
    k0_pay1 (F := Ideal) (iblk0 V c 0 t) (iblk0 V c 2 t) (iblk0 V c 3 t) (iblk0 V c 1 t) (iblk0 V c 4 t) (iblk0 V c 5 t) (ix2 p q)
      = pre0 V c (ix2 (rowAt t.val (lt0 t) p) q) := by
  refine (Cert.KernelIdeal.Pay.pay1_at _ _ _ _ _ _ p q).trans ?_
  unfold pre0
  exact convAt_congr _ _ _ _ _ _ _ _ _ _ _ _ p (rowAt t.val (lt0 t) p) q (fun k => in0_0 V c t p k) (fun k => in0_1 V c t p k)
    (in0_2 V c t p 0) (fun k => in0_3 V c t k q) (fun k => in0_4 V c t k q) (in0_5 V c t 0 q)

theorem flushed0_6 (t : Fin cfg0.N) :
    (dat0 V c).flushed 6 t = ((cfg0.win 6).blk t).view.read (Elt Ideal) (pre0 V c) := by
  show (cfg0.win 6).cut (grid0.coords t) ((dat0 V c).after 6 t) = _
  rw [after0_6]
  unfold out0_6
  rw [View.canon_unit_zero hz]
  simp only [View.ld_unit_zero (S := S5000x256) hz, View.ld_unit_zero (S := S5000x1) hz, View.ld_unit_zero (S := S256x256) hz, View.ld_unit_zero (S := S1x256) hz]
  funext y
  obtain ⟨p, q, rfl⟩ : ∃ (p : Fin 5000) (q : Fin 256), y = ix2 p q := ⟨y 0, y 1, eq_ix2 y⟩
  show k0_pay1 (F := Ideal) (iblk0 V c 0 t) (iblk0 V c 2 t) (iblk0 V c 3 t) (iblk0 V c 1 t) (iblk0 V c 4 t) (iblk0 V c 5 t) (ix2 p q)
    = pre0 V c (((cfg0.win 6).blk t).view.emb (ix2 p q))
  rw [emb0_6]
  exact tile0 V c t p q

theorem stat_row (tv : ℕ) (ht : tv < 10) (u : Fin 8) (p : Fin 5000) (h : (statRow tv ht u).val / 8 < 10) :
    rowAt ((statRow tv ht u).val / 8) h p = rowAt tv ht p :=
  Fin.ext (by show (tv * 8 + u.val) / 8 * 5000 + p.val = tv * 5000 + p.val; have := u.isLt; omega)

theorem flushed0_7 (t : Fin cfg0.N) :
    (dat0 V c).flushed 7 t = ((cfg0.win 7).blk t).view.read (Elt Ideal) (tileSums (pre0 V c)) := by
  show (cfg0.win 7).cut (grid0.coords t) ((dat0 V c).after 7 t) = _
  rw [after0_7]
  unfold out0_7
  rw [View.canon_unit_zero hz]
  simp only [View.ld_unit_zero (S := S5000x256) hz, View.ld_unit_zero (S := S5000x1) hz, View.ld_unit_zero (S := S256x256) hz, View.ld_unit_zero (S := S1x256) hz]
  funext y
  obtain ⟨u, q, rfl⟩ : ∃ (u : Fin 8) (q : Fin 256), y = ix2 u q := ⟨y 0, y 1, eq_ix2 y⟩
  show k0_pay2 (F := Ideal) (iblk0 V c 0 t) (iblk0 V c 2 t) (iblk0 V c 3 t) (iblk0 V c 1 t) (iblk0 V c 4 t) (iblk0 V c 5 t) (ix2 u q)
    = tileSums (pre0 V c) (((cfg0.win 7).blk t).view.emb (ix2 u q))
  rw [emb0_7]
  refine (Cert.KernelIdeal.Pay.pay2_at _ _ _ _ _ _ u q).trans ?_
  unfold tileSums
  refine Finset.sum_congr rfl fun p _ => ?_
  show _ = pre0 V c (ix2 (rowAt ((statRow t.val (lt0 t) u).val / 8) _ p) q)
  rw [stat_row]
  exact tile0 V c t p q

theorem flushed0_8 (t : Fin cfg0.N) :
    (dat0 V c).flushed 8 t = ((cfg0.win 8).blk t).view.read (Elt Ideal) (tileSumsq (pre0 V c)) := by
  show (cfg0.win 8).cut (grid0.coords t) ((dat0 V c).after 8 t) = _
  rw [after0_8]
  unfold out0_8
  rw [View.canon_unit_zero hz]
  simp only [View.ld_unit_zero (S := S5000x256) hz, View.ld_unit_zero (S := S5000x1) hz, View.ld_unit_zero (S := S256x256) hz, View.ld_unit_zero (S := S1x256) hz]
  funext y
  obtain ⟨u, q, rfl⟩ : ∃ (u : Fin 8) (q : Fin 256), y = ix2 u q := ⟨y 0, y 1, eq_ix2 y⟩
  show k0_pay3 (F := Ideal) (iblk0 V c 0 t) (iblk0 V c 2 t) (iblk0 V c 3 t) (iblk0 V c 1 t) (iblk0 V c 4 t) (iblk0 V c 5 t) (ix2 u q)
    = tileSumsq (pre0 V c) (((cfg0.win 8).blk t).view.emb (ix2 u q))
  rw [emb0_8]
  refine (Cert.KernelIdeal.Pay.pay3_at _ _ _ _ _ _ u q).trans ?_
  unfold tileSumsq
  refine Finset.sum_congr rfl fun p _ => ?_
  show _ = pre0 V c (ix2 (rowAt ((statRow t.val (lt0 t) u).val / 8) _ p) q) * pre0 V c (ix2 (rowAt ((statRow t.val (lt0 t) u).val / 8) _ p) q)
  rw [stat_row, tile0 V c t p q]

theorem flushed1_5 (t : Fin cfg1.N) :
    (dat1 V c).flushed 5 t = ((cfg1.win 5).blk t).view.read (Elt Ideal) (bn1 V c) := by
  show (cfg1.win 5).cut (grid1.coords t) ((dat1 V c).after 5 t) = _
  rw [after1_5]
  unfold out1_5
  rw [View.canon_unit_zero hz]
  simp only [View.ld_unit_zero (S := S5000x256) hz, View.ld_unit_zero (S := S1x256) hz]
  funext y
  obtain ⟨p, q, rfl⟩ : ∃ (p : Fin 5000) (q : Fin 256), y = ix2 p q := ⟨y 0, y 1, eq_ix2 y⟩
  show k1_pay1 (F := Ideal) (iblk1 V c 0 t) (iblk1 V c 2 t) (iblk1 V c 1 t) (iblk1 V c 3 t) (iblk1 V c 4 t) (ix2 p q)
    = bn1 V c (((cfg1.win 5).blk t).view.emb (ix2 p q))
  rw [emb1_5]
  refine (Cert.KernelIdeal.Pay.bn_at _ _ _ _ _ p q).trans ?_
  unfold bn1
  exact bnAt_congr _ _ _ _ _ _ _ _ _ _ _ _ p (rowAt t.val (lt1 t) p) q (in1_0 V c t p q) (in1_1 V c t 0 q) (in1_2 V c t 0 q)
    (in1_3 V c t 0 q) (in1_4 V c t 0 q)

theorem flushed2_6 (t : Fin cfg2.N) :
    (dat2 V c).flushed 6 t = ((cfg2.win 6).blk t).view.read (Elt Ideal) (emb2 V c) := by
  show (cfg2.win 6).cut (grid2.coords t) ((dat2 V c).after 6 t) = _
  rw [after2_6]
  unfold out2_6
  rw [View.canon_unit_zero hz]
  simp only [View.ld_unit_zero (S := S5000x256) hz, View.ld_unit_zero (S := S5000x1) hz, View.ld_unit_zero (S := S256x256) hz, View.ld_unit_zero (S := S1x256) hz]
  funext y
  obtain ⟨p, q, rfl⟩ : ∃ (p : Fin 5000) (q : Fin 256), y = ix2 p q := ⟨y 0, y 1, eq_ix2 y⟩
  show k2_pay1 (F := Ideal) (iblk2 V c 0 t) (iblk2 V c 2 t) (iblk2 V c 3 t) (iblk2 V c 1 t) (iblk2 V c 4 t) (iblk2 V c 5 t) (ix2 p q)
    = emb2 V c (((cfg2.win 6).blk t).view.emb (ix2 p q))
  rw [emb2_6]
  refine (Cert.KernelIdeal.Pay.l2_at _ _ _ _ _ _ p q).trans ?_
  unfold emb2
  refine l2At_congr _ _ _ p (rowAt t.val (lt2 t) p) q fun q' => ?_
  exact convAt_congr _ _ _ _ _ _ _ _ _ _ _ _ p (rowAt t.val (lt2 t) p) q' (fun k => in2_0 V c t p k) (fun k => in2_1 V c t p k)
    (in2_2 V c t p 0) (fun k => in2_3 V c t k q') (fun k => in2_4 V c t k q') (in2_5 V c t 0 q')

/-! ## The arrays after each kernel -/

theorem final0_6 : (dat0 V c).arrAt 6 cfg0.N = pre0 V c :=
  (dat0 V c).arrAt_eq_of_cover 6 (pre0 V c) (fun t _ => flushed0_6 V c t) (cover0_6)
theorem final0_7 : (dat0 V c).arrAt 7 cfg0.N = tileSums (pre0 V c) :=
  (dat0 V c).arrAt_eq_of_cover 7 (tileSums (pre0 V c)) (fun t _ => flushed0_7 V c t) (cover0_7)
theorem final0_8 : (dat0 V c).arrAt 8 cfg0.N = tileSumsq (pre0 V c) :=
  (dat0 V c).arrAt_eq_of_cover 8 (tileSumsq (pre0 V c)) (fun t _ => flushed0_8 V c t) (cover0_8)
theorem final1_5 : (dat1 V c).arrAt 5 cfg1.N = bn1 V c :=
  (dat1 V c).arrAt_eq_of_cover 5 (bn1 V c) (fun t _ => flushed1_5 V c t) (cover1_5)
theorem final2_6 : (dat2 V c).arrAt 6 cfg2.N = emb2 V c :=
  (dat2 V c).arrAt_eq_of_cover 6 (emb2 V c) (fun t _ => flushed2_6 V c t) (cover2_6)

end Arrays

end Cert.KernelIdeal.Blocks

end
-- ==== Proof.KHost.lean ====
/-
  What the idealized kernel program's host operations hand to each kernel, and what they make of the kernels' results, as
  functions of the argument arrays: the neighbour sums (a gather of rows at the source numbers accumulated into the
  destination rows), the per-row scale from the neighbour count, the transposed weights and the bias and statistics rows,
  the column means and variances from the per-tile totals, and the pooled, normalised graph embedding.
-/
import proofs.«130432_j89258010345478_2_alg».proof.Proof.Gen.KernelIdeal.Frame
import proofs.«130432_j89258010345478_2_alg».proof.Proof.KBlocks
import Idealize.ShloMosaic.Lib.StableHlo.Run

set_option maxRecDepth 16384

noncomputable section

namespace Cert.KernelIdeal.Host

open Idealize.ShloMosaic Idealize.ShloMosaic.TcCoe Idealize.ShloMosaic.StableHlo Idealize.SL.Sem
open Idealize.ShloMosaic.Pipeline (Dat)
open Cert.KernelIdeal Cert.KernelIdeal.Gen Cert.KernelIdeal.Blocks

/-! ## The host functions -/

/-- The edges' source row numbers. -/
def srcVec (e : IVec S2x800000 32) : IVec S800000 32 :=
  shapeCast S800000 (extractStridedSlice S1x800000 ![0, 0] e slices_S2x800000_S1x800000_0_0) shapeCasts_S1x800000_S800000

/-- The edges' destination row numbers. -/
def dstVec (e : IVec S2x800000 32) : IVec S800000 32 :=
  shapeCast S800000 (extractStridedSlice S1x800000 ![1, 0] e slices_S2x800000_S1x800000_1_0) shapeCasts_S1x800000_S800000

/-- The destination numbers as a column. -/
def dstCol (e : IVec S2x800000 32) : IVec S800000x1 32 :=
  broadcastInDim S800000x1 ![0] bcast_S800000_S800000x1_0 (dstVec e)

/-- The source numbers as a column, a negative number counted from the end. -/
def srcCol (e : IVec S2x800000 32) : IVec S800000x1 32 :=
  broadcastInDim S800000x1 ![0] bcast_S800000_S800000x1_0
    (select (cmpi .slt (srcVec e) (broadcastInDim S800000 ![] bcast_S_S800000 (constantI S_ 32 0#32)))
      (addi (srcVec e) (broadcastInDim S800000 ![] bcast_S_S800000 (constantI S_ 32 50000#32))) (srcVec e))

/-- The neighbour sums of a feature array: its rows gathered at the sources and accumulated into the destinations. -/
def sums (X : FVec Ideal S50000x256 .f32) (e : IVec S2x800000 32) : FVec Ideal S50000x256 .f32 :=
  Host.scatterAdd scatter_S50000x256_S800000x1_S800000x256_1_0_0_1
    (broadcastInDim S50000x256 ![] bcast_S_S50000x256 (constant (F := Ideal) S_ .f32 0x00000000#32)) (dstCol e)
    (Host.gather gather_S50000x256_S800000x1_S800000x256_1_0_n_n_0_1_1256 X (srcCol e))

/-- The neighbour counts. -/
def cnt (e : IVec S2x800000 32) : FVec Ideal S50000x1 .f32 :=
  Host.scatterAdd scatter_S50000x1_S800000x1_S800000x1_1_0_0_1
    (broadcastInDim S50000x1 ![] bcast_S_S50000x1 (constant (F := Ideal) S_ .f32 0x00000000#32)) (dstCol e)
    (broadcastInDim S800000x1 ![] bcast_S_S800000x1 (constant (F := Ideal) S_ .f32 0x3F800000#32))

/-- The per-row scale: one over the count clamped below by one where the count is positive, zero elsewhere. -/
def scale (e : IVec S2x800000 32) : FVec Ideal S50000x1 .f32 :=
  select (cmpf (F := Ideal) .ogt (cnt e) (broadcastInDim S50000x1 ![] bcast_S_S50000x1 (constant (F := Ideal) S_ .f32 0x00000000#32)))
    (Host.divf (broadcastInDim S50000x1 ![] bcast_S_S50000x1 (constant (F := Ideal) S_ .f32 0x3F800000#32))
      (maximumf (cnt e) (broadcastInDim S50000x1 ![] bcast_S_S50000x1 (constant (F := Ideal) S_ .f32 0x3F800000#32))))
    (broadcastInDim S50000x1 ![] bcast_S_S50000x1 (id (constant (F := Ideal) S_ .f32 0x00000000#32)))

theorem splat_col (w : BitVec 32) (i : S50000x1.Idx) :
    broadcastInDim S50000x1 ![] bcast_S_S50000x1 (constant (F := Ideal) S_ .f32 w) i = Ideal.ofBits .f32 w := rfl
theorem splat_col_id (w : BitVec 32) (i : S50000x1.Idx) :
    broadcastInDim S50000x1 ![] bcast_S_S50000x1 (id (constant (F := Ideal) S_ .f32 w)) i = Ideal.ofBits .f32 w := rfl
theorem hostDivf_at {s : Shape} (a b : FVec Ideal s .f32) (i : s.Idx) : Host.divf a b i = Ideal.div (a i) (b i) := rfl

/-- The scale of one row, from that row's count. -/
theorem scale_at (e : IVec S2x800000 32) (i : S50000x1.Idx) :
    scale e i = Scalar.select (Ideal.cmp .ogt (cnt e i) (Ideal.ofBits .f32 0x00000000#32))
      (Ideal.div (Ideal.ofBits .f32 0x3F800000#32) (max (cnt e i) (Ideal.ofBits .f32 0x3F800000#32))) (Ideal.ofBits .f32 0x00000000#32) := by
  unfold scale
  rw [ValueIdx.select_apply, ValueIdx.cmpf_apply, hostDivf_at, ValueIdx.maximumf_apply, splat_col, splat_col, splat_col_id]
  rfl

/-- A weight matrix transposed. -/
def tr (w : FVec Ideal S256x256 .f32) : FVec Ideal S256x256 .f32 := transpose S256x256 [1, 0] w transposes_S256x256_S256x256_1_0

/-- A vector laid out as a row. -/
def rowOf (b : FVec Ideal S256 .f32) : FVec Ideal S1x256 .f32 := shapeCast S1x256 b shapeCasts_S256_S1x256

/-- Row 0 of each tile's statistics block, the ten rows totalled. -/
def total (A : FVec Ideal S80x256 .f32) : FVec Ideal S1x256 .f32 :=
  broadcastInDim S1x256 ![1] bcast_S256_S1x256_1
    (Host.reduceAdd (shapeCast S10x256 (extractStridedSlice S10x1x256 ![0, 0, 0] (shapeCast S10x8x256 A shapeCasts_S80x256_S10x8x256)
      slices_S10x8x256_S10x1x256_0_0_0) shapeCasts_S10x1x256_S10x256) (constant (F := Ideal) S_ .f32 0x00000000#32) reducesTo_S10x256_S256_d0 h_S_)

/-- The column means from the per-tile totals. -/
def meanOf (A : FVec Ideal S80x256 .f32) : FVec Ideal S1x256 .f32 :=
  Host.divf (total A) (broadcastInDim S1x256 ![] bcast_S_S1x256 (constant (F := Ideal) S_ .f32 0x47435000#32))

/-- The column variances, one pass: mean of squares minus squared mean, clamped at zero. -/
def varOf (A Q : FVec Ideal S80x256 .f32) : FVec Ideal S1x256 .f32 :=
  maximumf (subf (Host.divf (total Q) (broadcastInDim S1x256 ![] bcast_S_S1x256 (constant (F := Ideal) S_ .f32 0x47435000#32)))
      (mulf (meanOf A) (meanOf A)))
    (broadcastInDim S1x256 ![] bcast_S_S1x256 (constant (F := Ideal) S_ .f32 0x00000000#32))

/-- The graph embedding: the node embeddings pooled by graph number, averaged, divided by the length. -/
def pool (E : FVec Ideal S50000x256 .f32) (g : IVec S50000 32) : FVec Ideal S1x256 .f32 :=
  Host.divf (Host.scatterAdd scatter_S1x256_S50000x1_S50000x256_1_0_0_1
      (broadcastInDim S1x256 ![] bcast_S_S1x256 (constant (F := Ideal) S_ .f32 0x00000000#32))
      (broadcastInDim S50000x1 ![0] bcast_S50000_S50000x1_0 g) E)
    (broadcastInDim S1x256 ![0, 1] bcast_S1x1_S1x256_0_1
      (maximumf (Host.scatterAdd scatter_S1x1_S50000x1_S50000x1_1_0_0_1
          (broadcastInDim S1x1 ![] bcast_S_S1x1 (constant (F := Ideal) S_ .f32 0x00000000#32))
          (broadcastInDim S50000x1 ![0] bcast_S50000_S50000x1_0 g)
          (broadcastInDim S50000x1 ![] bcast_S_S50000x1 (constant (F := Ideal) S_ .f32 0x3F800000#32)))
        (broadcastInDim S1x1 ![] bcast_S_S1x1 (constant (F := Ideal) S_ .f32 0x3F800000#32))))

/-- A row divided by the larger of its length and the floor. -/
def unit (G : FVec Ideal S1x256 .f32) : FVec Ideal S1x256 .f32 :=
  Host.divf G (broadcastInDim S1x256 ![0, 1] bcast_S1x1_S1x256_0_1
    (maximumf (Host.sqrt (broadcastInDim S1x1 ![0] bcast_S1_S1x1_0
        (Host.reduceAdd (mulf G G) (constant (F := Ideal) S_ .f32 0x00000000#32) reducesTo_S1x256_S1_d1 h_S_)))
      (broadcastInDim S1x1 ![] bcast_S_S1x1 (constant (F := Ideal) S_ .f32 0x2B8CBCCC#32))))

variable (m : (ℓ : Loc nD τ sig) → Buf (Elt Ideal) ℓ) (ρ : Dev nD → PrngReg) (c : Dev nD)

/-- A buffer no operation of a stretch writes is after the stretch what it was before. -/
macro "kept_by " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## Before kernel 0 -/

theorem W1_v1 : W1 m ρ c (Proc.devRef .tc main_v1) = srcVec (m ((c : Thread nD τ).loc main_arg9)) := by
  dsimp only [W1, W0, hostOps0]; after_results_simp; rfl
theorem W1_v3 : W1 m ρ c (Proc.devRef .tc main_v3) = dstVec (m ((c : Thread nD τ).loc main_arg9)) := by
  dsimp only [W1, W0, hostOps0]; after_results_simp; rfl
theorem W3_v1 : W3 m ρ c (Proc.devRef .tc main_v1) = srcVec (m ((c : Thread nD τ).loc main_arg9)) :=
  calc W3 m ρ c (Proc.devRef .tc main_v1) = W2 m ρ c (Proc.devRef .tc main_v1) := by kept_by hostOps0_2
    _ = W1 m ρ c (Proc.devRef .tc main_v1) := by kept_by hostOps0_1
    _ = _ := W1_v1 m ρ c
theorem W3_v3 : W3 m ρ c (Proc.devRef .tc main_v3) = dstVec (m ((c : Thread nD τ).loc main_arg9)) :=
  calc W3 m ρ c (Proc.devRef .tc main_v3) = W2 m ρ c (Proc.devRef .tc main_v3) := by kept_by hostOps0_2
    _ = W1 m ρ c (Proc.devRef .tc main_v3) := by kept_by hostOps0_1
    _ = _ := W1_v3 m ρ c
theorem W1_v9 : W1 m ρ c (Proc.devRef .tc main_v9) = cmpf (F := Ideal) .ogt (cnt (m ((c : Thread nD τ).loc main_arg9)))
    (broadcastInDim S50000x1 ![] bcast_S_S50000x1 (constant (F := Ideal) S_ .f32 0x00000000#32)) := by
  dsimp only [W1, W0, hostOps0]; after_results_simp; rfl
theorem W1_v13 : W1 m ρ c (Proc.devRef .tc main_v13) = Host.divf (broadcastInDim S50000x1 ![] bcast_S_S50000x1 (constant (F := Ideal) S_ .f32 0x3F800000#32))
    (maximumf (cnt (m ((c : Thread nD τ).loc main_arg9))) (broadcastInDim S50000x1 ![] bcast_S_S50000x1 (constant (F := Ideal) S_ .f32 0x3F800000#32))) := by
  dsimp only [W1, W0, hostOps0]; after_results_simp; rfl
theorem W1_cst4 : W1 m ρ c (Proc.devRef .tc main_cst_4) = constant (F := Ideal) S_ .f32 0x00000000#32 := by
  dsimp only [W1, W0, hostOps0]; after_results_simp

/-- The selection between two columns and a splat scalar, over any contents of the three buffers it reads. -/
theorem where_v14 (G : Valuation τ sig (Elt Ideal)) : StableHlo.after hostOps0_1 G (Proc.devRef .tc main_v14)
    = select (G (Proc.devRef .tc main_v9) : IVec S50000x1 1) (G (Proc.devRef .tc main_v13) : FVec Ideal S50000x1 .f32)
        (broadcastInDim S50000x1 ![] bcast_S_S50000x1 (id (G (Proc.devRef .tc main_cst_4) : FVec Ideal S_ .f32))) := by
  dsimp only [hostOps0_1]; after_results_simp; rfl

theorem W2_v14 : W2 m ρ c (Proc.devRef .tc main_v14) = scale (m ((c : Thread nD τ).loc main_arg9)) := by
  refine (where_v14 (W1 m ρ c)).trans ?_
  rw [W1_v9, W1_v13, W1_cst4]
  rfl
theorem W3_v14 : W3 m ρ c (Proc.devRef .tc main_v14) = scale (m ((c : Thread nD τ).loc main_arg9)) :=
  (show W3 m ρ c (Proc.devRef .tc main_v14) = W2 m ρ c (Proc.devRef .tc main_v14) by kept_by hostOps0_2).trans (W2_v14 m ρ c)
set_option maxHeartbeats 2000000 in
theorem W3_v24 : W3 m ρ c (Proc.devRef .tc main_v24)
    = sums (m ((c : Thread nD τ).loc main_arg0)) (m ((c : Thread nD τ).loc main_arg9)) := by
  dsimp only [W3, W2, W1, W0, hostOps0_2, hostOps0_1, hostOps0]; after_results_simp; rfl
theorem W3_v25 : W3 m ρ c (Proc.devRef .tc main_v25) = tr (m ((c : Thread nD τ).loc main_arg1)) := by
  dsimp only [W3, W2, W1, W0, hostOps0_2, hostOps0_1, hostOps0]; after_results_simp; rfl
theorem W3_v26 : W3 m ρ c (Proc.devRef .tc main_v26) = tr (m ((c : Thread nD τ).loc main_arg3)) := by
  dsimp only [W3, W2, W1, W0, hostOps0_2, hostOps0_1, hostOps0]; after_results_simp; rfl
theorem W3_v27 : W3 m ρ c (Proc.devRef .tc main_v27) = rowOf (m ((c : Thread nD τ).loc main_arg2)) := by
  dsimp only [W3, W2, W1, W0, hostOps0_2, hostOps0_1, hostOps0]; after_results_simp; rfl

/-- One step back through a stretch of host operations that does not write the buffer. -/
macro "kept" : tactic =>
  `(tactic| (refine (StableHlo.after_of_forall_not_mem _ _ (List.forall_iff_forall_mem.mp ?_)).trans ?_
             · simp only [hostOps0, hostOps0_1, hostOps0_2, hostOps1, hostOps2, hostOps3, hostOps3_1, hostOps3_2, List.flatten_cons, List.flatten_nil, List.append_nil, List.cons_append,
                 List.nil_append, List.Forall, StableHlo.nullary_writes, StableHlo.unary_writes, StableHlo.binary_writes, StableHlo.ternary_writes, StableHlo.quaternary_writes, StableHlo.reshape_writes, StableHlo.binaryIndexed_writes, Finset.mem_singleton]
               repeat' apply And.intro
               all_goals exact StableHlo.devRef_ne_of_ne (by decide)))

theorem W3_arg0 : W3 m ρ c (Proc.devRef .tc main_arg0) = m ((c : Thread nD τ).loc main_arg0) := by
  kept; kept; kept; rfl

/-! ## After kernel 0 -/

theorem W4_v28_0 : W4 m ρ c (Proc.devRef .tc main_v28_0) = pre0 (V3 m ρ) c :=
  (W4_arr m ρ c 6).trans (final0_6 (V3 m ρ) c)
theorem W4_v28_1 : W4 m ρ c (Proc.devRef .tc main_v28_1) = tileSums (pre0 (V3 m ρ) c) :=
  (W4_arr m ρ c 7).trans (final0_7 (V3 m ρ) c)
theorem W4_v28_2 : W4 m ρ c (Proc.devRef .tc main_v28_2) = tileSumsq (pre0 (V3 m ρ) c) :=
  (W4_arr m ρ c 8).trans (final0_8 (V3 m ρ) c)
theorem W4_v1 : W4 m ρ c (Proc.devRef .tc main_v1) = srcVec (m ((c : Thread nD τ).loc main_arg9)) :=
  (W4_of_ne m ρ c main_v1 (by decide)).trans (W3_v1 m ρ c)
theorem W4_v3 : W4 m ρ c (Proc.devRef .tc main_v3) = dstVec (m ((c : Thread nD τ).loc main_arg9)) :=
  (W4_of_ne m ρ c main_v3 (by decide)).trans (W3_v3 m ρ c)
theorem W4_v14 : W4 m ρ c (Proc.devRef .tc main_v14) = scale (m ((c : Thread nD τ).loc main_arg9)) :=
  ((W4_arr m ρ c 2).trans (((dat0 (V3 m ρ) c).arrAt_in 2 rfl _).trans (A_eq0 (V3 m ρ) c 2))).trans (W3_v14 m ρ c)
theorem W4_arg7 : W4 m ρ c (Proc.devRef .tc main_arg7) = m ((c : Thread nD τ).loc main_arg7) := by
  refine (W4_of_ne m ρ c main_arg7 (by decide)).trans ?_
  kept; kept; kept; rfl
theorem W4_arg8 : W4 m ρ c (Proc.devRef .tc main_arg8) = m ((c : Thread nD τ).loc main_arg8) := by
  refine (W4_of_ne m ρ c main_arg8 (by decide)).trans ?_
  kept; kept; kept; rfl

/-! ## Before kernel 1 -/

theorem W5_v28_0 : W5 m ρ c (Proc.devRef .tc main_v28_0) = pre0 (V3 m ρ) c := by
  kept; exact W4_v28_0 m ρ c
set_option maxHeartbeats 2000000 in
theorem W5_v40 : W5 m ρ c (Proc.devRef .tc main_v40) = meanOf (tileSums (pre0 (V3 m ρ) c)) := by
  dsimp only [W5, hostOps1]; after_results_simp; rw [W4_v28_1]; rfl
set_option maxHeartbeats 2000000 in
theorem W5_v46 : W5 m ρ c (Proc.devRef .tc main_v46) = varOf (tileSums (pre0 (V3 m ρ) c)) (tileSumsq (pre0 (V3 m ρ) c)) := by
  dsimp only [W5, hostOps1]; after_results_simp; rw [W4_v28_1, W4_v28_2]; rfl
theorem W5_v47 : W5 m ρ c (Proc.devRef .tc main_v47) = rowOf (m ((c : Thread nD τ).loc main_arg7)) := by
  dsimp only [W5, hostOps1]; after_results_simp; rw [W4_arg7]; rfl
theorem W5_v48 : W5 m ρ c (Proc.devRef .tc main_v48) = rowOf (m ((c : Thread nD τ).loc main_arg8)) := by
  dsimp only [W5, hostOps1]; after_results_simp; rw [W4_arg8]; rfl

/-! ## After kernel 1, before kernel 2 -/

theorem W6_v49 : W6 m ρ c (Proc.devRef .tc main_v49) = bn1 (V5 m ρ) c :=
  (W6_arr m ρ c 5).trans (final1_5 (V5 m ρ) c)
theorem W6_v1 : W6 m ρ c (Proc.devRef .tc main_v1) = srcVec (m ((c : Thread nD τ).loc main_arg9)) := by
  refine (W6_of_ne m ρ c main_v1 (by decide)).trans ?_
  kept; exact W4_v1 m ρ c
theorem W6_v3 : W6 m ρ c (Proc.devRef .tc main_v3) = dstVec (m ((c : Thread nD τ).loc main_arg9)) := by
  refine (W6_of_ne m ρ c main_v3 (by decide)).trans ?_
  kept; exact W4_v3 m ρ c
theorem W6_v14 : W6 m ρ c (Proc.devRef .tc main_v14) = scale (m ((c : Thread nD τ).loc main_arg9)) := by
  refine (W6_of_ne m ρ c main_v14 (by decide)).trans ?_
  kept; exact W4_v14 m ρ c
theorem W6_arg4 : W6 m ρ c (Proc.devRef .tc main_arg4) = m ((c : Thread nD τ).loc main_arg4) := by
  refine (W6_of_ne m ρ c main_arg4 (by decide)).trans ?_
  kept; refine (W4_of_ne m ρ c main_arg4 (by decide)).trans ?_
  kept; kept; kept; rfl
theorem W6_arg5 : W6 m ρ c (Proc.devRef .tc main_arg5) = m ((c : Thread nD τ).loc main_arg5) := by
  refine (W6_of_ne m ρ c main_arg5 (by decide)).trans ?_
  kept; refine (W4_of_ne m ρ c main_arg5 (by decide)).trans ?_
  kept; kept; kept; rfl
theorem W6_arg6 : W6 m ρ c (Proc.devRef .tc main_arg6) = m ((c : Thread nD τ).loc main_arg6) := by
  refine (W6_of_ne m ρ c main_arg6 (by decide)).trans ?_
  kept; refine (W4_of_ne m ρ c main_arg6 (by decide)).trans ?_
  kept; kept; kept; rfl
theorem W6_arg10 : W6 m ρ c (Proc.devRef .tc main_arg10) = m ((c : Thread nD τ).loc main_arg10) := by
  refine (W6_of_ne m ρ c main_arg10 (by decide)).trans ?_
  kept; refine (W4_of_ne m ρ c main_arg10 (by decide)).trans ?_
  kept; kept; kept; rfl

set_option maxHeartbeats 2000000 in
theorem W7_v59 : W7 m ρ c (Proc.devRef .tc main_v59) = sums (bn1 (V5 m ρ) c) (m ((c : Thread nD τ).loc main_arg9)) := by
  dsimp only [W7, hostOps2]; after_results_simp; rw [W6_v49, W6_v1, W6_v3]; rfl
theorem W7_v49 : W7 m ρ c (Proc.devRef .tc main_v49) = bn1 (V5 m ρ) c := by
  kept; exact W6_v49 m ρ c
theorem W7_v14 : W7 m ρ c (Proc.devRef .tc main_v14) = scale (m ((c : Thread nD τ).loc main_arg9)) := by
  kept; exact W6_v14 m ρ c
theorem W7_v60 : W7 m ρ c (Proc.devRef .tc main_v60) = tr (m ((c : Thread nD τ).loc main_arg4)) := by
  dsimp only [W7, hostOps2]; after_results_simp; rw [W6_arg4]; rfl
theorem W7_v61 : W7 m ρ c (Proc.devRef .tc main_v61) = tr (m ((c : Thread nD τ).loc main_arg6)) := by
  dsimp only [W7, hostOps2]; after_results_simp; rw [W6_arg6]; rfl
theorem W7_v62 : W7 m ρ c (Proc.devRef .tc main_v62) = rowOf (m ((c : Thread nD τ).loc main_arg5)) := by
  dsimp only [W7, hostOps2]; after_results_simp; rw [W6_arg5]; rfl

/-! ## After kernel 2 -/

theorem W8_v63 : W8 m ρ c (Proc.devRef .tc main_v63) = emb2 (V7 m ρ) c :=
  (W8_arr m ρ c 6).trans (final2_6 (V7 m ρ) c)
theorem W8_arg10 : W8 m ρ c (Proc.devRef .tc main_arg10) = m ((c : Thread nD τ).loc main_arg10) := by
  refine (W8_of_ne m ρ c main_arg10 (by decide)).trans ?_
  kept; exact W6_arg10 m ρ c

theorem W11_v63 : W11 m ρ c (Proc.devRef .tc main_v63) = emb2 (V7 m ρ) c := by
  kept; kept; kept; exact W8_v63 m ρ c
set_option maxHeartbeats 2000000 in
theorem W11_v79 : W11 m ρ c (Proc.devRef .tc main_v79) = unit (pool (emb2 (V7 m ρ) c) (m ((c : Thread nD τ).loc main_arg10))) := by
  dsimp only [W11, W10, W9, hostOps3_2, hostOps3_1, hostOps3]; after_results_simp; rw [W8_v63, W8_arg10]; rfl

/-! ## The results as functions of the arguments -/

open Cert.Sage Idealize.ShloMosaic.ValueIdx

/-- The first layer before normalisation. -/
def preK (a0 : FVec Ideal S50000x256 .f32) (a1 : FVec Ideal S256x256 .f32) (a2 : FVec Ideal S256 .f32) (a3 : FVec Ideal S256x256 .f32)
    (e : IVec S2x800000 32) : S50000x256.Idx → EReal := fun i =>
  convAt (sums a0 e) a0 (scale e) (tr a1) (tr a3) (rowOf a2) (i 0) (i 1)

/-- A layer normalised by its one-pass column statistics, scaled, shifted and rectified. -/
def h1K (P : S50000x256.Idx → EReal) (a7 a8 : FVec Ideal S256 .f32) : S50000x256.Idx → EReal := fun i =>
  bnAt P (meanOf (tileSums P)) (varOf (tileSums P) (tileSumsq P)) (rowOf a7) (rowOf a8)
    (Ideal.ofBits .f32 0x3727C5AC#32) (Ideal.ofBits .f32 0x00000000#32) (i 0) (i 1)

/-- The second layer with each row divided by its length. -/
def nodeK (H : S50000x256.Idx → EReal) (a4 : FVec Ideal S256x256 .f32) (a5 : FVec Ideal S256 .f32) (a6 : FVec Ideal S256x256 .f32)
    (e : IVec S2x800000 32) : S50000x256.Idx → EReal := fun i =>
  l2At (convAt (sums H e) H (scale e) (tr a4) (tr a6) (rowOf a5)) (Ideal.ofBits .f32 0x2B8CBCCC#32) (i 0) (i 1)

theorem pre_val : pre0 (V3 m ρ) c = preK (m ((c : Thread nD τ).loc main_arg0)) (m ((c : Thread nD τ).loc main_arg1))
    (m ((c : Thread nD τ).loc main_arg2)) (m ((c : Thread nD τ).loc main_arg3)) (m ((c : Thread nD τ).loc main_arg9)) := by
  have e24 : V3 m ρ c main_v24 = _ := W3_v24 m ρ c
  have e0 : V3 m ρ c main_arg0 = _ := W3_arg0 m ρ c
  have e14 : V3 m ρ c main_v14 = _ := W3_v14 m ρ c
  have e25 : V3 m ρ c main_v25 = _ := W3_v25 m ρ c
  have e26 : V3 m ρ c main_v26 = _ := W3_v26 m ρ c
  have e27 : V3 m ρ c main_v27 = _ := W3_v27 m ρ c
  unfold pre0 preK
  rw [e24, e0, e14, e25, e26, e27]

theorem h1_val : bn1 (V5 m ρ) c = h1K (pre0 (V3 m ρ) c) (m ((c : Thread nD τ).loc main_arg7)) (m ((c : Thread nD τ).loc main_arg8)) := by
  have e0 : V5 m ρ c main_v28_0 = _ := W5_v28_0 m ρ c
  have e1 : V5 m ρ c main_v40 = _ := W5_v40 m ρ c
  have e2 : V5 m ρ c main_v46 = _ := W5_v46 m ρ c
  have e3 : V5 m ρ c main_v47 = _ := W5_v47 m ρ c
  have e4 : V5 m ρ c main_v48 = _ := W5_v48 m ρ c
  unfold bn1 h1K
  rw [e0, e1, e2, e3, e4]

theorem node_val : emb2 (V7 m ρ) c = nodeK (bn1 (V5 m ρ) c) (m ((c : Thread nD τ).loc main_arg4)) (m ((c : Thread nD τ).loc main_arg5))
    (m ((c : Thread nD τ).loc main_arg6)) (m ((c : Thread nD τ).loc main_arg9)) := by
  have e0 : V7 m ρ c main_v59 = _ := W7_v59 m ρ c
  have e1 : V7 m ρ c main_v49 = _ := W7_v49 m ρ c
  have e2 : V7 m ρ c main_v14 = _ := W7_v14 m ρ c
  have e3 : V7 m ρ c main_v60 = _ := W7_v60 m ρ c
  have e4 : V7 m ρ c main_v61 = _ := W7_v61 m ρ c
  have e5 : V7 m ρ c main_v62 = _ := W7_v62 m ρ c
  unfold emb2 nodeK
  rw [e0, e1, e2, e3, e4, e5]

/-- The node embeddings the kernel program returns, of the argument arrays. -/
def nodeOf (a0 : FVec Ideal S50000x256 .f32) (a1 : FVec Ideal S256x256 .f32) (a2 : FVec Ideal S256 .f32) (a3 a4 : FVec Ideal S256x256 .f32)
    (a5 : FVec Ideal S256 .f32) (a6 : FVec Ideal S256x256 .f32) (a7 a8 : FVec Ideal S256 .f32) (e : IVec S2x800000 32) :
    S50000x256.Idx → EReal :=
  nodeK (h1K (preK a0 a1 a2 a3 e) a7 a8) a4 a5 a6 e

theorem result0 : W11 m ρ c (Proc.devRef .tc main_v63) = nodeOf (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) := by
  rw [W11_v63, node_val, h1_val, pre_val]; rfl

theorem result1 : W11 m ρ c (Proc.devRef .tc main_v79) = unit (pool (nodeOf (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))) (m ((c : Thread nD τ).loc main_arg10))) := by
  rw [W11_v79, node_val, h1_val, pre_val]; rfl

end Cert.KernelIdeal.Host

end
-- ==== Proof.LibVariance.lean ====
/-
  The two-pass and the one-pass sample variance agree on the extended reals.

  For a finite family of REAL numbers r i (read as extended reals), with S = ∑ r i, Q = ∑ r i · r i,
  N the number of terms (N > 1) and mu = S / N, the one-pass form  (Q − N · (mu · mu)) / (N − 1)  and the
  two-pass form  (∑ (r i − mu) · (r i − mu)) / (N − 1)  are the same nonnegative real, so clamping the first
  at zero changes nothing and their square roots agree. All of it is real algebra: every operand is the
  coercion of a real, every divisor is a nonzero real, so each extended-real operation is the coercion
  of the real one, and the identity  ∑ (r i − mu)² = Q − N · mu²  (which holds because S = N · mu) finishes.

  Also here: the coercion of a finite real sum is the sum of the coercions, and the real values of the
  four binary32 words 200000, 199999, 0 and 1.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import Idealize.ShloMosaic.PureOps.Ideal.Laws

noncomputable section

namespace Cert.Lib.Variance

open Idealize.ShloMosaic
open scoped BigOperators

variable {ι : Type*}

/-! ### (a) Coercion commutes with finite sums -/

/-- The coercion of a finite sum of reals is the sum of the coercions (over any finite set). -/
theorem coe_finset_sum (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The coercion of a sum of reals over a finite type is the sum of the coercions. -/
theorem coe_sum [Fintype ι] (r : ι → ℝ) : ((∑ i, r i : ℝ) : EReal) = ∑ i, (r i : EReal) :=
  coe_finset_sum Finset.univ r

/-- The same from a zero start: 0 + ∑ of the coercions is the coercion of the real sum. -/
theorem zero_add_coe_sum [Fintype ι] (r : ι → ℝ) :
    (0 : EReal) + ∑ i, (r i : EReal) = ((∑ i, r i : ℝ) : EReal) := by
  rw [zero_add, coe_sum]

/-- A zero start and a sum of products of coercions. -/
theorem zero_add_coe_sum_mul [Fintype ι] (a b : ι → ℝ) :
    (0 : EReal) + ∑ i, (a i : EReal) * (b i : EReal) = ((∑ i, a i * b i : ℝ) : EReal) := by
  rw [zero_add, coe_sum]; simp only [EReal.coe_mul]

/-! ### The quotient of two reals -/

/-- The quotient of two coerced reals by a nonzero divisor is the coerced real quotient. -/
theorem div_coe_coe (a b : ℝ) (hb : b ≠ 0) : Ideal.div (a : EReal) (b : EReal) = ((a / b : ℝ) : EReal) := by
  rw [Ideal.div_coe hb, ← EReal.coe_mul, mul_one_div]

/-! ### (b) The real identity -/

/-- If S = N · m (m the mean), the sum of squared deviations from m is Q − N · m². -/
theorem sum_sq_dev_of_mean [Fintype ι] (r : ι → ℝ) (N m : ℝ) (hN : N = (Fintype.card ι : ℝ))
    (hm : ∑ j, r j = N * m) :
    ∑ i, (r i - m) * (r i - m) = (∑ i, r i * r i) - N * (m * m) := by
  have h1 : ∀ i, (r i - m) * (r i - m) = r i * r i - 2 * m * r i + m * m := fun i => by ring
  rw [Finset.sum_congr rfl (fun i _ => h1 i), Finset.sum_add_distrib, Finset.sum_sub_distrib,
    ← Finset.mul_sum, hm, Finset.sum_const, Finset.card_univ, nsmul_eq_mul, ← hN]
  ring

/-- The sum of squared deviations from the mean S / N is Q − N · (S/N)². -/
theorem sum_sq_dev [Fintype ι] (r : ι → ℝ) (N : ℝ) (hN : N = (Fintype.card ι : ℝ)) (hN0 : N ≠ 0) :
    ∑ i, (r i - (∑ j, r j) / N) * (r i - (∑ j, r j) / N)
      = (∑ i, r i * r i) - N * (((∑ j, r j) / N) * ((∑ j, r j) / N)) :=
  sum_sq_dev_of_mean r N _ hN (by field_simp)

/-- A sum of squares is nonnegative. -/
theorem sum_sq_dev_nonneg [Fintype ι] (r : ι → ℝ) (m : ℝ) : 0 ≤ ∑ i, (r i - m) * (r i - m) :=
  Finset.sum_nonneg fun i _ => mul_self_nonneg _

/-- Hence the one-pass numerator is nonnegative. -/
theorem one_pass_nonneg [Fintype ι] (r : ι → ℝ) (N : ℝ) (hN : N = (Fintype.card ι : ℝ)) (hN0 : N ≠ 0) :
    0 ≤ (∑ i, r i * r i) - N * (((∑ j, r j) / N) * ((∑ j, r j) / N)) := by
  rw [← sum_sq_dev r N hN hN0]; exact sum_sq_dev_nonneg r _

/-! ### (c) The law on the extended reals -/

section Law
variable [Fintype ι] (r : ι → ℝ) (N : ℝ)

/-- The mean, as an extended real, is the coerced real mean. -/
theorem mean_eq (hN0 : N ≠ 0) :
    Ideal.div ((0 : EReal) + ∑ i, (r i : EReal)) ((N : ℝ) : EReal) = (((∑ i, r i) / N : ℝ) : EReal) := by
  rw [zero_add_coe_sum, div_coe_coe _ _ hN0]

/-- The two-pass variance is the coercion of a real: (∑ (r i − m)²) / (N − 1) with m = S / N. -/
theorem two_pass_eq (hN0 : N ≠ 0) (hN1 : N - 1 ≠ 0) :
    Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)
      = (((∑ i, (r i - (∑ j, r j) / N) * (r i - (∑ j, r j) / N)) / (N - 1) : ℝ) : EReal) := by
  rw [mean_eq r N hN0]
  simp only [← EReal.coe_sub]
  rw [zero_add_coe_sum_mul, div_coe_coe _ _ hN1]

/-- The one-pass variance is the coercion of a real: (Q − N · (m · m)) / (N − 1) with m = S / N. -/
theorem one_pass_eq (hN0 : N ≠ 0) (hN1 : N - 1 ≠ 0) :
    Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)
      = ((((∑ i, r i * r i) - N * (((∑ j, r j) / N) * ((∑ j, r j) / N))) / (N - 1) : ℝ) : EReal) := by
  rw [mean_eq r N hN0, zero_add_coe_sum_mul, ← EReal.coe_mul, ← EReal.coe_mul, ← EReal.coe_sub,
    div_coe_coe _ _ hN1]

/-- THE LAW, before the square root: the one-pass variance clamped at zero is the two-pass variance. -/
theorem var_eq (hN : N = (Fintype.card ι : ℝ)) (h1 : 1 < N) :
    max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0
      = Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal) := by
  have hN0 : N ≠ 0 := by linarith
  have hN1 : N - 1 ≠ 0 := by linarith
  have hpos : (0 : ℝ) < N - 1 := by linarith
  rw [one_pass_eq r N hN0 hN1, two_pass_eq r N hN0 hN1, sum_sq_dev r N hN hN0]
  refine max_eq_left ?_
  have : (0 : ℝ) ≤ ((∑ i, r i * r i) - N * (((∑ j, r j) / N) * ((∑ j, r j) / N))) / (N - 1) :=
    div_nonneg (one_pass_nonneg r N hN hN0) hpos.le
  exact_mod_cast this

/-- THE LAW: the square roots of the clamped one-pass variance and of the two-pass variance agree. -/
theorem sqrt_var_eq (hN : N = (Fintype.card ι : ℝ)) (h1 : 1 < N) :
    Ideal.sqrt (max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0)
      = Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)) :=
  congrArg Ideal.sqrt (var_eq r N hN h1)

/-- The common value is a finite nonnegative real: the two-pass standard deviation is the coercion of a real ≥ 0. -/
theorem sqrt_two_pass_eq (h1 : 1 < N) :
    ∃ v : ℝ, 0 ≤ v ∧
      Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal))
        = ((Real.sqrt v : ℝ) : EReal) := by
  have hN0 : N ≠ 0 := by linarith
  have hN1 : N - 1 ≠ 0 := by linarith
  have hpos : (0 : ℝ) < N - 1 := by linarith
  refine ⟨(∑ i, (r i - (∑ j, r j) / N) * (r i - (∑ j, r j) / N)) / (N - 1),
    div_nonneg (sum_sq_dev_nonneg r _) hpos.le, ?_⟩
  rw [two_pass_eq r N hN0 hN1, Ideal.sqrt_coe, if_neg (not_lt.mpr (div_nonneg (sum_sq_dev_nonneg r _) hpos.le))]

end Law

/-! ### (d) Four binary32 words as reals

  0x48435000: exponent field 144, fraction 4411392, so (2^23 + 4411392) · 2^(144 − 127 − 23) = 12800000 / 64 = 200000.
  0x48434FC0: exponent field 144, fraction 4411328, so 12799936 / 64 = 199999. -/

/-- The word 0x48435000 denotes the real 200000. -/
theorem ofBits_200000 : Ideal.ofBits .f32 0x48435000#32 = ((200000 : ℝ) : EReal) := by
  simp [Ideal.ofBits, Ideal.ieee, -EReal.coe_mul]; norm_num

/-- The word 0x48434FC0 denotes the real 199999. -/
theorem ofBits_199999 : Ideal.ofBits .f32 0x48434FC0#32 = ((199999 : ℝ) : EReal) := by
  simp [Ideal.ofBits, Ideal.ieee, -EReal.coe_mul]; norm_num

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := by
  simp [Ideal.ofBits, Ideal.ieee, -EReal.coe_mul]; norm_num

/-- 199999 is 200000 − 1, as coerced reals (the divisor of the variance against the count). -/
theorem coe_199999 : ((199999 : ℝ) : EReal) = ((200000 - 1 : ℝ) : EReal) := by norm_num

end Cert.Lib.Variance

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.LibBatchNorm.lean ====
/-
  Batch-norm column statistics on the extended reals: the one-pass and the two-pass forms agree.

  For a finite family of entries x i that are all (coercions of) real numbers, with N > 0 the number of
  entries, S = ∑ x i and Q = ∑ x i · x i (grouped in any way: addition on the extended reals is commutative
  and associative, infinities included), the one-pass statistics
      mean = S / N,    variance = max (Q / N − mean · mean) 0
  are the two-pass textbook statistics
      mean = S / N,    variance = (∑ (x i − mean) · (x i − mean)) / N.
  Every operand is the coercion of a real and the divisor is a nonzero real, so each extended-real operation
  is the coercion of the real one; the real identity  ∑ (r i − m)² = Q − N · m²  (m = S / N) then gives
  (∑ (r i − m)²) / N = Q / N − m², a nonnegative real, so the clamp at zero changes nothing.

  Also here: "is a real" is closed under the arithmetic used (sum, difference, product, maximum, finite sums,
  division by a nonzero real, reciprocal square root of a positive real); a sum over n = T · B rows is the
  sum over T tiles of the sums over the B rows of each tile; and the real values of four binary32 words.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import Idealize.ShloMosaic.PureOps.Ideal.Laws
import proofs.«130432_j89258010345478_2_alg».proof.Proof.LibVariance
import proofs.«130432_j89258010345478_2_alg».proof.Proof.LibSumBlocks

noncomputable section

namespace Cert.LibBatchNorm

open Idealize.ShloMosaic
open scoped BigOperators

/-! ### Extended reals that are real numbers -/

/-- an extended real that is a real number -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

theorem IsReal.max {x y : EReal} : IsReal x → IsReal y → IsReal (max x y) := by
  rintro ⟨a, rfl⟩ ⟨b, rfl⟩; exact ⟨Max.max a b, (EReal.coe_strictMono.monotone.map_max).symm⟩

theorem IsReal.sum {ι : Type*} (s : Finset ι) (f : ι → EReal) :
    (∀ i ∈ s, IsReal (f i)) → IsReal (∑ i ∈ s, f i) :=
  Finset.sum_induction f IsReal (fun _ _ => IsReal.add) IsReal.zero

theorem IsReal.div_coe {x : EReal} (hx : IsReal x) {y : ℝ} (hy : y ≠ 0) :
    IsReal (Ideal.div x (y : EReal)) := by
  obtain ⟨a, rfl⟩ := hx
  exact ⟨a / y, Cert.Lib.Variance.div_coe_coe a y hy⟩

/-- rsqrt of a positive real is a positive real -/
theorem IsReal.rsqrt_of_pos {x : EReal} (hx : IsReal x) (hpos : 0 < x) :
    IsReal (Ideal.rsqrt x) ∧ 0 < Ideal.rsqrt x := by
  obtain ⟨a, rfl⟩ := hx
  have ha : 0 < a := by exact_mod_cast hpos
  have hs : 0 < (Real.sqrt a)⁻¹ := inv_pos.mpr (Real.sqrt_pos.mpr ha)
  rw [Ideal.rsqrt_coe, if_neg (not_lt.mpr ha.le), if_neg ha.ne']
  exact ⟨⟨_, rfl⟩, by exact_mod_cast hs⟩

/-- a maximum with one is positive -/
theorem one_le_max_one (x : EReal) : (0 : EReal) < max x 1 :=
  lt_max_of_lt_right zero_lt_one

/-! ### The statistics -/

section Stats
variable {ι : Type*} [Fintype ι] (x : ι → EReal) (cN cEps : EReal)

/-- two-pass column mean -/
def meanR : EReal := Ideal.div (0 + ∑ i, x i) cN

/-- two-pass column variance -/
def varR : EReal := Ideal.div (0 + ∑ i, (x i - meanR x cN) * (x i - meanR x cN)) cN

/-- one-pass mean from the total S -/
def meanK (S : EReal) : EReal := Ideal.div S cN

/-- one-pass variance from the total S and the total of squares Q -/
def varK (S Q : EReal) : EReal := max (Ideal.div Q cN - meanK cN S * meanK cN S) 0

end Stats

/-- THE LAW. N is the number of rows as a real; every entry real; S and Q are the totals (however they were grouped). -/
theorem stats_eq {ι : Type*} [Fintype ι] (x : ι → EReal) (hx : ∀ i, IsReal (x i)) (N : ℝ)
    (hN : N = (Fintype.card ι : ℝ)) (hpos : 0 < N)
    (S Q : EReal) (hS : S = 0 + ∑ i, x i) (hQ : Q = 0 + ∑ i, x i * x i) :
    meanK (N : EReal) S = meanR x (N : EReal) ∧ varK (N : EReal) S Q = varR x (N : EReal)
      ∧ IsReal (meanR x (N : EReal)) ∧ IsReal (varR x (N : EReal)) ∧ 0 ≤ varR x (N : EReal) := by
  choose r hr using hx
  obtain rfl : x = fun i => (r i : EReal) := funext hr
  subst hS hQ
  have hN0 : N ≠ 0 := hpos.ne'
  have hmean : meanR (fun i => (r i : EReal)) (N : EReal) = (((∑ i, r i) / N : ℝ) : EReal) :=
    Cert.Lib.Variance.mean_eq r N hN0
  have hvarR : varR (fun i => (r i : EReal)) (N : EReal)
      = (((∑ i, (r i - (∑ j, r j) / N) * (r i - (∑ j, r j) / N)) / N : ℝ) : EReal) := by
    unfold varR
    rw [hmean]
    simp only [← EReal.coe_sub]
    rw [Cert.Lib.Variance.zero_add_coe_sum_mul, Cert.Lib.Variance.div_coe_coe _ _ hN0]
  have hnn : (0 : ℝ) ≤ (∑ i, (r i - (∑ j, r j) / N) * (r i - (∑ j, r j) / N)) / N :=
    div_nonneg (Cert.Lib.Variance.sum_sq_dev_nonneg r _) hpos.le
  have hreal : (∑ i, r i * r i) / N - (∑ i, r i) / N * ((∑ i, r i) / N)
      = (∑ i, (r i - (∑ j, r j) / N) * (r i - (∑ j, r j) / N)) / N := by
    rw [Cert.Lib.Variance.sum_sq_dev r N hN hN0]; field_simp
  have hvarK : varK (N : EReal) (0 + ∑ i, (r i : EReal)) (0 + ∑ i, (r i : EReal) * (r i : EReal))
      = (((∑ i, (r i - (∑ j, r j) / N) * (r i - (∑ j, r j) / N)) / N : ℝ) : EReal) := by
    unfold varK meanK
    rw [Cert.Lib.Variance.mean_eq r N hN0, Cert.Lib.Variance.zero_add_coe_sum_mul,
      Cert.Lib.Variance.div_coe_coe _ _ hN0, ← EReal.coe_mul, ← EReal.coe_sub, hreal]
    exact max_eq_left (by exact_mod_cast hnn)
  refine ⟨rfl, hvarK.trans hvarR.symm, ⟨_, hmean⟩, ⟨_, hvarR⟩, ?_⟩
  rw [hvarR]; exact_mod_cast hnn

/-! ### Regrouping rows into tiles -/

/-- row y of tile t, tiles of B rows: t * B + y -/
def rowOf {T B n : ℕ} (h : n = T * B) (t : Fin T) (y : Fin B) : Fin n :=
  ⟨t.val * B + y.val, by subst h; exact Cert.SumBlocks.block_lt t y⟩

/-- regrouping rows into T tiles of B rows (plain inner sums). No finiteness. -/
theorem sum_tiles' {T B n : ℕ} (h : n = T * B) (f : Fin n → EReal) :
    (0 : EReal) + ∑ t : Fin T, (∑ y : Fin B, f (rowOf h t y)) = 0 + ∑ r : Fin n, f r := by
  rw [Cert.SumBlocks.sum_fin_blocks T B h f]; rfl

/-- regrouping rows into T tiles of B rows, each tile summed from a zero start. No finiteness. -/
theorem sum_tiles {T B n : ℕ} (h : n = T * B) (f : Fin n → EReal) :
    (0 : EReal) + ∑ t : Fin T, ((0 : EReal) + ∑ y : Fin B, f (rowOf h t y)) = 0 + ∑ r : Fin n, f r := by
  simp only [zero_add]
  exact (zero_add _).symm.trans ((sum_tiles' h f).trans (zero_add _))

/-! ### The inverse standard deviation -/

/-- the inverse standard deviation is a (positive) real when the variance is a nonnegative real and eps a positive real -/
theorem invstd_real {v : EReal} (hv : IsReal v) (h0 : 0 ≤ v) {e : ℝ} (he : 0 < e) :
    IsReal (Ideal.rsqrt (v + (e : EReal))) := by
  obtain ⟨a, rfl⟩ := hv
  have ha : 0 ≤ a := by exact_mod_cast h0
  have hpos : (0 : EReal) < (a : EReal) + (e : EReal) := by
    rw [← EReal.coe_add]; exact_mod_cast add_pos_of_nonneg_of_pos ha he
  exact ((IsReal.coe a).add (IsReal.coe e)).rsqrt_of_pos hpos |>.1

/-! ### Four binary32 words as reals

  0x47C35000: exponent field 143, fraction 4411392, so (2^23 + 4411392) · 2^(143 − 127 − 23) = 12800000 / 128 = 100000.
  0x3727C5AC: exponent field 110, fraction 2606508, so (2^23 + 2606508) · 2^(110 − 127 − 23) = 10995116 · 2^(−40),
  a positive real (about 1.0e-5). -/

/-- The word 0x47C35000 denotes the real 100000. -/
theorem ofBits_100000 : Ideal.ofBits .f32 0x47C35000#32 = ((100000 : ℝ) : EReal) := by
  simp [Ideal.ofBits, Ideal.ieee, -EReal.coe_mul]; norm_num

/-- The word 0x3727C5AC denotes a positive real. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := Cert.Lib.Variance.ofBits_one

end Cert.LibBatchNorm

end
-- ==== Proof.KReal.lean ====
/-
  Real entries and the column statistics of the kernel program's first layer. A neighbour sum of real rows is real, the
  per-row scale is real whatever the count, so for real features, weights and bias every entry of the first layer is a
  real number; the ten tiles' column totals, totalled, are the columns' totals over all 50000 rows; and for a real layer the
  one-pass mean and variance taken from those totals are the two-pass mean and variance.
-/
import proofs.«130432_j89258010345478_2_alg».proof.Proof.KHost
import proofs.«130432_j89258010345478_2_alg».proof.Proof.LibBatchNorm
import proofs.«130432_j89258010345478_2_alg».proof.Proof.LibBiasRows
import Idealize.ShloMosaic.PureOps.Ideal.Laws
import Idealize.ShloMosaic.Lib.Pipeline.Value

set_option maxRecDepth 16384

noncomputable section

namespace Cert.KernelIdeal.Host

open Idealize.ShloMosaic Idealize.ShloMosaic.ValueIdx Cert.Sage
open Cert.LibBatchNorm hiding rowOf
open Cert.KernelIdeal Cert.KernelIdeal.Gen Cert.KernelIdeal.Blocks

/-! ## Real entries -/

theorem zero_word_real : IsReal (Ideal.ofBits .f32 0x00000000#32) := by rw [Ideal.ofBits_zero_f32]; exact IsReal.zero
theorem one_word : Ideal.ofBits .f32 0x3F800000#32 = 1 := Cert.Lib.Variance.ofBits_one

/-- An accumulating scatter of real updates into a real array is real. -/
theorem scatter_real {s si su : Shape} (d : ScatterDims s si su) {w : ℕ} (x : s.Idx → EReal) (idx : IVec si w) (upd : su.Idx → EReal)
    (hx : ∀ i, IsReal (x i)) (hu : ∀ u, IsReal (upd u)) (i : s.Idx) : IsReal (Ideal.hostScatterAdd d x idx upd i) := by
  unfold Ideal.hostScatterAdd
  exact (hx i).add (IsReal.sum _ _ fun u _ => hu u)

/-- The same for the host's accumulating scatter as the programs spell it. -/
theorem scatterAdd_real {s si su : Shape} (d : ScatterDims s si su) {w : ℕ} (x : FVec Ideal s .f32) (idx : IVec si w) (upd : FVec Ideal su .f32)
    (hx : ∀ i, IsReal (x i)) (hu : ∀ u, IsReal (upd u)) (i : s.Idx) : IsReal (Host.scatterAdd d x idx upd i) :=
  scatter_real d x idx upd hx hu i

/-- The neighbour sums of a real array are real. -/
theorem sums_real (X : FVec Ideal S50000x256 .f32) (e : IVec S2x800000 32) (hX : ∀ i, IsReal (X i))
    (i : S50000x256.Idx) : IsReal (sums X e i) := by
  unfold sums
  have hGr : ∀ u, IsReal (Host.gather gather_S50000x256_S800000x1_S800000x256_1_0_n_n_0_1_1256 X (srcCol e) u) := fun u =>
    hX (gather_S50000x256_S800000x1_S800000x256_1_0_n_n_0_1_1256.operandIdx u (srcCol e))
  have hZr : ∀ i, IsReal (broadcastInDim S50000x256 ![] bcast_S_S50000x256 (constant (F := Ideal) S_ .f32 0x00000000#32) i) :=
    fun _ => zero_word_real
  exact scatterAdd_real scatter_S50000x256_S800000x1_S800000x256_1_0_0_1
    (broadcastInDim S50000x256 ![] bcast_S_S50000x256 (constant (F := Ideal) S_ .f32 0x00000000#32)) (dstCol e)
    (Host.gather gather_S50000x256_S800000x1_S800000x256_1_0_n_n_0_1_1256 X (srcCol e)) hZr hGr i

/-- The neighbour counts are real. -/
theorem cnt_real (e : IVec S2x800000 32) (i : S50000x1.Idx) : IsReal (cnt e i) := by
  unfold cnt
  have hOr : ∀ u, IsReal (broadcastInDim S800000x1 ![] bcast_S_S800000x1 (constant (F := Ideal) S_ .f32 0x3F800000#32) u) := fun _ => by
    show IsReal (Ideal.ofBits .f32 0x3F800000#32); rw [one_word]; exact IsReal.one
  have hZr : ∀ i, IsReal (broadcastInDim S50000x1 ![] bcast_S_S50000x1 (constant (F := Ideal) S_ .f32 0x00000000#32) i) :=
    fun _ => zero_word_real
  exact scatterAdd_real scatter_S50000x1_S800000x1_S800000x1_1_0_0_1
    (broadcastInDim S50000x1 ![] bcast_S_S50000x1 (constant (F := Ideal) S_ .f32 0x00000000#32)) (dstCol e)
    (broadcastInDim S800000x1 ![] bcast_S_S800000x1 (constant (F := Ideal) S_ .f32 0x3F800000#32)) hZr hOr i

/-- The per-row scale is real whatever the count. -/
theorem scale_real (e : IVec S2x800000 32) (i : S50000x1.Idx) : IsReal (scale e i) := by
  rw [scale_at, select_cmp]
  split
  · rw [one_word]
    obtain ⟨y, hy⟩ := (cnt_real e i).max IsReal.one
    have hpos : (0 : EReal) < max (cnt e i) 1 := one_le_max_one _
    rw [hy] at hpos ⊢
    exact IsReal.one.div_coe (by intro h0; rw [h0] at hpos; exact lt_irrefl _ hpos)
  · exact zero_word_real

theorem tr_real (w : FVec Ideal S256x256 .f32) (hw : ∀ i, IsReal (w i)) (i : S256x256.Idx) : IsReal (tr w i) := by
  unfold tr transpose; exact hw _
theorem rowOf_real (b : FVec Ideal S256 .f32) (hb : ∀ i, IsReal (b i)) (i : S1x256.Idx) : IsReal (rowOf b i) := by
  unfold rowOf shapeCast; exact hb _

/-- For real features, weights and bias the first layer before normalisation is real. -/
theorem pre_real (x0 : FVec Ideal S50000x256 .f32) (x1 : FVec Ideal S256x256 .f32) (x2 : FVec Ideal S256 .f32) (x3 : FVec Ideal S256x256 .f32) (x9 : IVec S2x800000 32) (h0 : ∀ i, IsReal (x0 i)) (h1 : ∀ i, IsReal (x1 i)) (h2 : ∀ i, IsReal (x2 i))
    (h3 : ∀ i, IsReal (x3 i)) (r : Fin 50000) (j : Fin 256) : IsReal (preK x0 x1 x2 x3 x9 (ix2 r j)) := by
  unfold preK convAt
  exact ((IsReal.sum _ _ fun k _ => ((sums_real x0 x9 h0 _).mul (scale_real x9 _)).mul (tr_real x1 h1 _)).add
    (IsReal.sum _ _ fun k _ => (h0 _).mul (tr_real x3 h3 _))).add (rowOf_real x2 h2 _)

/-! ## The per-tile totals, totalled -/

/-- Row 0 of each tile's block, the ten rows totalled, at column `j`. -/
theorem total_at (A : FVec Ideal S80x256 .f32) (j : Fin 256) :
    total A (ix2 (0 : Fin 1) j) = Ideal.ofBits .f32 0x00000000#32 + ∑ t : Fin 10, A (ix2 (statRow t.val t.isLt (0 : Fin 8)) j) := by
  unfold total
  refine (broadcastInDim_apply _ bcast_S256_S1x256_1 _ (ix2 (0 : Fin 1) j) (ix1 j) (fun a => match a with
    | ⟨0, _⟩ => by show j.val = if (256 : Nat) = 1 then 0 else j.val; rw [if_neg (by decide)])).trans ?_
  simp only [Host.reduceAdd, Ideal.hostReduceAdd_def]
  rw [Ideal.hostReduceAdd_single reducesTo_S10x256_S256_d0 (by decide)]
  refine congrArg₂ (· + ·) rfl (Finset.sum_congr rfl fun t _ => ?_)
  refine (congrArg _ (show _ = (ix2 t j : S10x256.Idx) from
    funext fun a => Fin.ext (by match a with | ⟨0, _⟩ => rfl | ⟨1, _⟩ => rfl))).trans ?_
  refine (shapeCast_apply _ _ (ix2 t j : S10x256.Idx) (ix3 t (0 : Fin 1) j) ?_).trans ?_
  · rw [Shape.rowMajor_val_three, Shape.rowMajor_val_two]
    show (t.val * 1 + 0) * 256 + j.val = t.val * 256 + j.val
    omega
  refine (extractStridedSlice_apply _ _ _ (ix3 t (0 : Fin 1) j) (ix3 t (0 : Fin 8) j) (fun a => ?_)).trans ?_
  · match a with
    | ⟨0, _⟩ => show t.val = 0 + t.val; omega
    | ⟨1, _⟩ => rfl
    | ⟨2, _⟩ => show j.val = 0 + j.val; omega
  refine shapeCast_apply _ _ (ix3 t (0 : Fin 8) j) (ix2 (statRow t.val t.isLt (0 : Fin 8)) j) ?_
  rw [Shape.rowMajor_val_three, Shape.rowMajor_val_two]
  show (t.val * 8 + 0) * 256 + j.val = (t.val * 8 + 0) * 256 + j.val
  rfl

theorem rowOf_rowAt (t : Fin 10) (p : Fin 5000) : Cert.LibBatchNorm.rowOf (show 50000 = 10 * 5000 by norm_num) t p = rowAt t.val t.isLt p :=
  Fin.ext rfl

/-- The ten tiles' column totals, totalled, are the column's total. -/
theorem total_sums (P : S50000x256.Idx → EReal) (j : Fin 256) :
    total (tileSums P) (ix2 (0 : Fin 1) j) = 0 + ∑ r : Fin 50000, P (ix2 r j) := by
  rw [total_at, Ideal.ofBits_zero_f32, ← sum_tiles' (show 50000 = 10 * 5000 by norm_num) fun r => P (ix2 r j)]
  refine congrArg₂ (· + ·) rfl (Finset.sum_congr rfl fun t _ => ?_)
  unfold tileSums
  refine Finset.sum_congr rfl fun p _ => ?_
  show P (ix2 (rowAt ((statRow t.val t.isLt (0 : Fin 8)).val / 8) _ p) j) = _
  rw [stat_row, rowOf_rowAt]

/-- The same for the totals of squares. -/
theorem total_sumsq (P : S50000x256.Idx → EReal) (j : Fin 256) :
    total (tileSumsq P) (ix2 (0 : Fin 1) j) = 0 + ∑ r : Fin 50000, P (ix2 r j) * P (ix2 r j) := by
  rw [total_at, Ideal.ofBits_zero_f32, ← sum_tiles' (show 50000 = 10 * 5000 by norm_num) fun r => P (ix2 r j) * P (ix2 r j)]
  refine congrArg₂ (· + ·) rfl (Finset.sum_congr rfl fun t _ => ?_)
  unfold tileSumsq
  refine Finset.sum_congr rfl fun p _ => ?_
  show P (ix2 (rowAt ((statRow t.val t.isLt (0 : Fin 8)).val / 8) _ p) j) * P (ix2 (rowAt ((statRow t.val t.isLt (0 : Fin 8)).val / 8) _ p) j) = _
  rw [stat_row, rowOf_rowAt]

/-- THE STATISTICS: for a real layer the one-pass column mean and variance from the per-tile totals are the two-pass ones. -/
theorem stats (P : S50000x256.Idx → EReal) (hP : ∀ r j, IsReal (P (ix2 r j))) (j : Fin 256) :
    meanOf (tileSums P) (ix2 (0 : Fin 1) j) = meanR (fun r : Fin 50000 => P (ix2 r j)) ((50000 : ℝ) : EReal)
      ∧ varOf (tileSums P) (tileSumsq P) (ix2 (0 : Fin 1) j) = varR (fun r : Fin 50000 => P (ix2 r j)) ((50000 : ℝ) : EReal) := by
  obtain ⟨hm, hv, -⟩ := stats_eq (fun r : Fin 50000 => P (ix2 r j)) (fun r => hP r j) 50000 (by simp) (by norm_num)
    (total (tileSums P) (ix2 (0 : Fin 1) j)) (total (tileSumsq P) (ix2 (0 : Fin 1) j)) (total_sums P j) (total_sumsq P j)
  have hmean : meanOf (tileSums P) (ix2 (0 : Fin 1) j) = meanK ((50000 : ℝ) : EReal) (total (tileSums P) (ix2 (0 : Fin 1) j)) := by
    show Ideal.div _ (Ideal.ofBits .f32 0x47435000#32) = Ideal.div _ _
    rw [ofBits_50000]
  refine ⟨hmean.trans hm, ?_⟩
  refine Eq.trans ?_ hv
  show max (Ideal.div (total (tileSumsq P) (ix2 (0 : Fin 1) j)) (Ideal.ofBits .f32 0x47435000#32)
      - meanOf (tileSums P) (ix2 (0 : Fin 1) j) * meanOf (tileSums P) (ix2 (0 : Fin 1) j)) (Ideal.ofBits .f32 0x00000000#32) = _
  rw [hmean, ofBits_50000, Ideal.ofBits_zero_f32]
  rfl

end Cert.KernelIdeal.Host

end
-- ==== Proof.RefAt.lean ====
/-
  The reference program, read entry by entry on the extended reals in the kernel's arrangement: each layer before its
  normalisation (the masked mean of the neighbour sums is the sums times the row's scale; the bias may be added last),
  the two-pass column statistics, the normalised and rectified first layer, and the row-normalised second layer.
-/
import proofs.«130432_j89258010345478_2_alg».proof.Proof.RefRead
import proofs.«130432_j89258010345478_2_alg».proof.Proof.KHost
import proofs.«130432_j89258010345478_2_alg».proof.Proof.SageSpec
import proofs.«130432_j89258010345478_2_alg».proof.Proof.LibBiasRows

set_option maxRecDepth 16384

noncomputable section

namespace Cert.ReferenceIdeal.At

open Idealize.ShloMosaic Idealize.ShloMosaic.ValueIdx Cert.ReferenceIdeal Cert.ReferenceIdeal.Read Cert.Sage

/-! ## Layer 1 of the reference -/

theorem sums1_eq (x0 : (⟨S50000x256, .f32⟩ : BufTy).Contents (Elt Ideal)) (x9 : (⟨S2x800000, .i32⟩ : BufTy).Contents (Elt Ideal)) : val_main_v13 (F := Ideal) x0 x9 = Cert.KernelIdeal.Host.sums x0 x9 := rfl
theorem cnt1_eq (x9 : (⟨S2x800000, .i32⟩ : BufTy).Contents (Elt Ideal)) : val_main_v17 (F := Ideal) x9 = Cert.KernelIdeal.Host.cnt x9 := rfl
theorem trl1_eq (x1 : (⟨S256x256, .f32⟩ : BufTy).Contents (Elt Ideal)) : val_main_v25 (F := Ideal) x1 = Cert.KernelIdeal.Host.tr x1 := rfl
theorem trr1_eq (x3 : (⟨S256x256, .f32⟩ : BufTy).Contents (Elt Ideal)) : val_main_v30 (F := Ideal) x3 = Cert.KernelIdeal.Host.tr x3 := rfl

/-- The masked mean of the neighbour sums is the sums times the row's scale. -/
theorem agg1_at (x0 : (⟨S50000x256, .f32⟩ : BufTy).Contents (Elt Ideal)) (x9 : (⟨S2x800000, .i32⟩ : BufTy).Contents (Elt Ideal)) (r : Fin 50000) (k : Fin 256) :
    val_main_v24 (F := Ideal) x0 x9 (ix2 r k) = (val_main_v13 (F := Ideal) x0 x9) (ix2 r k) * Cert.KernelIdeal.Host.scale x9 (ix2 r (0 : Fin 1)) := by
  have h1 : idx_main_call0_v1 (ix2 r k) = ix2 r (0 : Fin 1) := funext fun a => Fin.ext (by match a with | ⟨0, _⟩ => rfl | ⟨1, _⟩ => rfl)
  have h2 : idx_main_v22 (ix2 r k) = ix2 r (0 : Fin 1) := funext fun a => Fin.ext (by match a with | ⟨0, _⟩ => rfl | ⟨1, _⟩ => rfl)
  rw [val_main_v24_apply, val_main_call0_v1_apply, val_main_v23_apply, val_main_v22_apply, h1, h2,
    val_main_v19_apply, val_main_v21_apply, val_main_v18_apply, val_main_cst_3_apply, val_main_v20_apply, val_main_cst_4_apply, val_main_call0_v2_apply, val_main_call0_v0_apply, val_main_cst_5_apply, cnt1_eq,
    Cert.KernelIdeal.Host.scale_at]
  simp only [Ideal.cmpf_def, Ideal.hostDivf_def, Ideal.maximumf_def, Ideal.ofBits_def]
  exact Cert.Sage.agg_scalar ((val_main_v13 (F := Ideal) x0 x9) (ix2 r k)) (Cert.KernelIdeal.Host.cnt x9 (ix2 r (0 : Fin 1)))

/-- The layer before its normalisation, at `(r, j)`, in the kernel's arrangement. -/
theorem layer1_at (x0 : (⟨S50000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x9 : (⟨S2x800000, .i32⟩ : BufTy).Contents (Elt Ideal)) (r : Fin 50000) (j : Fin 256) :
    val_main_v32 (F := Ideal) x0 x1 x2 x3 x9 (ix2 r j) = convAt (val_main_v13 (F := Ideal) x0 x9) x0 (Cert.KernelIdeal.Host.scale x9) (Cert.KernelIdeal.Host.tr x1)
      (Cert.KernelIdeal.Host.tr x3) (Cert.KernelIdeal.Host.rowOf x2) r j := by
  have hl : ∀ k : Fin 256, lidx_main_v26 (ix2 r j) k = ix2 r k := fun k => funext fun a => Fin.ext (by match a with | ⟨0, _⟩ => rfl | ⟨1, _⟩ => rfl)
  have hr : ∀ k : Fin 256, ridx_main_v26 (ix2 r j) k = ix2 k j := fun k => funext fun a => Fin.ext (by match a with | ⟨0, _⟩ => rfl | ⟨1, _⟩ => rfl)
  have hl' : ∀ k : Fin 256, lidx_main_v31 (ix2 r j) k = ix2 r k := fun k => funext fun a => Fin.ext (by match a with | ⟨0, _⟩ => rfl | ⟨1, _⟩ => rfl)
  have hr' : ∀ k : Fin 256, ridx_main_v31 (ix2 r j) k = ix2 k j := fun k => funext fun a => Fin.ext (by match a with | ⟨0, _⟩ => rfl | ⟨1, _⟩ => rfl)
  have hb : idx_main_v27 (idx_main_v28 (ix2 r j)) = ix1 j := funext fun a => Fin.ext (by match a with | ⟨0, _⟩ => rfl)
  rw [val_main_v32_apply, val_main_v29_apply, val_main_v26_apply, val_main_v31_apply, val_main_v28_apply,
    val_main_v27_apply, hb]
  simp only [hl, hr, hl', hr', agg1_at, trl1_eq, trr1_eq]
  unfold convAt
  refine (add_right_comm _ _ _).trans ?_
  refine congrArg₂ (· + ·) rfl ?_
  exact (Cert.LibBiasRows.row_of_vector x2 _ j).symm

/-! ## The two-pass column statistics and the normalised layer -/

/-- The column mean: the column's total over the number of rows. -/
theorem mean_at (x0 : (⟨S50000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x9 : (⟨S2x800000, .i32⟩ : BufTy).Contents (Elt Ideal)) (j : Fin 256) :
    val_main_v35 (F := Ideal) x0 x1 x2 x3 x9 (ix1 j) = Ideal.div (Ideal.ofBits .f32 0x00000000#32 + ∑ r : Fin 50000, val_main_v32 (F := Ideal) x0 x1 x2 x3 x9 (ix2 r j))
      (Ideal.ofBits .f32 0x47435000#32) := by
  have hi : ∀ k : Fin 50000, idx_main_v33 (ix1 j) k = ix2 k j := fun k => funext fun a => Fin.ext (by match a with | ⟨0, _⟩ => rfl | ⟨1, _⟩ => rfl)
  rw [val_main_v35_apply, val_main_v33_apply, val_main_v34_apply, val_main_cst_6_apply, val_main_cst_7_apply]
  simp only [hi, Ideal.hostDivf_def, Ideal.ofBits_def]

/-- The column variance: the total of the squared deviations from the mean over the number of rows. -/
theorem var_at (x0 : (⟨S50000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x9 : (⟨S2x800000, .i32⟩ : BufTy).Contents (Elt Ideal)) (j : Fin 256) :
    val_main_v42 (F := Ideal) x0 x1 x2 x3 x9 (ix1 j) = Ideal.div (Ideal.ofBits .f32 0x00000000#32 + ∑ r : Fin 50000,
        (val_main_v32 (F := Ideal) x0 x1 x2 x3 x9 (ix2 r j) - val_main_v35 (F := Ideal) x0 x1 x2 x3 x9 (ix1 j)) * (val_main_v32 (F := Ideal) x0 x1 x2 x3 x9 (ix2 r j) - val_main_v35 (F := Ideal) x0 x1 x2 x3 x9 (ix1 j)))
      (Ideal.ofBits .f32 0x47435000#32) := by
  have hi : ∀ k : Fin 50000, idx_main_v40 (ix1 j) k = ix2 k j := fun k => funext fun a => Fin.ext (by match a with | ⟨0, _⟩ => rfl | ⟨1, _⟩ => rfl)
  have hm : ∀ k : Fin 50000, idx_main_v36 (idx_main_v37 (ix2 k j)) = ix1 j := fun k => funext fun a => Fin.ext (by match a with | ⟨0, _⟩ => rfl)
  rw [val_main_v42_apply, val_main_v40_apply, val_main_v41_apply, val_main_cst_8_apply, val_main_cst_9_apply]
  simp only [Ideal.hostDivf_def, Ideal.ofBits_def]
  refine congrArg₂ Ideal.div (congrArg₂ (· + ·) rfl (Finset.sum_congr rfl fun k _ => ?_)) rfl
  rw [hi k, val_main_v39_apply, val_main_v38_apply, val_main_v37_apply, val_main_v36_apply, hm k]
  rfl

/-- The normalised, scaled, shifted and rectified first layer at `(r, j)`. -/
theorem h1_at (x0 : (⟨S50000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x7 : (⟨S256, .f32⟩ : BufTy).Contents (Elt Ideal)) (x8 : (⟨S256, .f32⟩ : BufTy).Contents (Elt Ideal)) (x9 : (⟨S2x800000, .i32⟩ : BufTy).Contents (Elt Ideal)) (r : Fin 50000) (j : Fin 256) :
    val_main_v58 (F := Ideal) x0 x1 x2 x3 x7 x8 x9 (ix2 r j) = max ((((val_main_v32 (F := Ideal) x0 x1 x2 x3 x9 (ix2 r j) - val_main_v35 (F := Ideal) x0 x1 x2 x3 x9 (ix1 j))
        * Ideal.rsqrt (val_main_v42 (F := Ideal) x0 x1 x2 x3 x9 (ix1 j) + Ideal.ofBits .f32 0x3727C5AC#32)) * x7 (ix1 j)) + x8 (ix1 j))
      (Ideal.ofBits .f32 0x00000000#32) := by
  have hm : idx_main_v43 (idx_main_v44 (ix2 r j)) = ix1 j := funext fun a => Fin.ext (by match a with | ⟨0, _⟩ => rfl)
  have hs : idx_main_v49 (idx_main_v50 (ix2 r j)) = ix1 j := funext fun a => Fin.ext (by match a with | ⟨0, _⟩ => rfl)
  have hg : idx_main_v52 (idx_main_v53 (ix2 r j)) = ix1 j := funext fun a => Fin.ext (by match a with | ⟨0, _⟩ => rfl)
  have hb : idx_main_v55 (idx_main_v56 (ix2 r j)) = ix1 j := funext fun a => Fin.ext (by match a with | ⟨0, _⟩ => rfl)
  rw [val_main_v58_apply, val_main_v57_apply, val_main_v54_apply, val_main_v51_apply, val_main_v45_apply, val_main_v44_apply,
    val_main_v43_apply, val_main_v50_apply, val_main_v49_apply, val_main_v48_apply, val_main_v47_apply, val_main_v53_apply,
    val_main_v52_apply, val_main_v56_apply, val_main_v55_apply, hm, hs, hg, hb, val_main_v46_apply, val_main_cst_10_apply,
    val_main_call1_v0_apply, val_main_call1_cst_apply]
  simp only [Ideal.maximumf_def, Ideal.addf_def, Ideal.mulf_def, Ideal.subf_def, Ideal.hostUnary_rsqrt_def, Ideal.ofBits_def]

/-! ## Layer 2 of the reference -/

theorem sums2_eq (x0 : (⟨S50000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x7 : (⟨S256, .f32⟩ : BufTy).Contents (Elt Ideal)) (x8 : (⟨S256, .f32⟩ : BufTy).Contents (Elt Ideal)) (x9 : (⟨S2x800000, .i32⟩ : BufTy).Contents (Elt Ideal)) : val_main_v68 (F := Ideal) x0 x1 x2 x3 x7 x8 x9 = Cert.KernelIdeal.Host.sums (val_main_v58 (F := Ideal) x0 x1 x2 x3 x7 x8 x9) x9 := rfl
theorem cnt2_eq (x9 : (⟨S2x800000, .i32⟩ : BufTy).Contents (Elt Ideal)) : val_main_v72 (F := Ideal) x9 = Cert.KernelIdeal.Host.cnt x9 := rfl
theorem trl2_eq (x4 : (⟨S256x256, .f32⟩ : BufTy).Contents (Elt Ideal)) : val_main_v80 (F := Ideal) x4 = Cert.KernelIdeal.Host.tr x4 := rfl
theorem trr2_eq (x6 : (⟨S256x256, .f32⟩ : BufTy).Contents (Elt Ideal)) : val_main_v85 (F := Ideal) x6 = Cert.KernelIdeal.Host.tr x6 := rfl

/-- The masked mean of the neighbour sums is the sums times the row's scale. -/
theorem agg2_at (x0 : (⟨S50000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x7 : (⟨S256, .f32⟩ : BufTy).Contents (Elt Ideal)) (x8 : (⟨S256, .f32⟩ : BufTy).Contents (Elt Ideal)) (x9 : (⟨S2x800000, .i32⟩ : BufTy).Contents (Elt Ideal)) (r : Fin 50000) (k : Fin 256) :
    val_main_v79 (F := Ideal) x0 x1 x2 x3 x7 x8 x9 (ix2 r k) = (val_main_v68 (F := Ideal) x0 x1 x2 x3 x7 x8 x9) (ix2 r k) * Cert.KernelIdeal.Host.scale x9 (ix2 r (0 : Fin 1)) := by
  have h1 : idx_main_call2_v1 (ix2 r k) = ix2 r (0 : Fin 1) := funext fun a => Fin.ext (by match a with | ⟨0, _⟩ => rfl | ⟨1, _⟩ => rfl)
  have h2 : idx_main_v77 (ix2 r k) = ix2 r (0 : Fin 1) := funext fun a => Fin.ext (by match a with | ⟨0, _⟩ => rfl | ⟨1, _⟩ => rfl)
  rw [val_main_v79_apply, val_main_call2_v1_apply, val_main_v78_apply, val_main_v77_apply, h1, h2,
    val_main_v74_apply, val_main_v76_apply, val_main_v73_apply, val_main_cst_16_apply, val_main_v75_apply, val_main_cst_17_apply, val_main_call2_v2_apply, val_main_call2_v0_apply, val_main_cst_18_apply, cnt2_eq,
    Cert.KernelIdeal.Host.scale_at]
  simp only [Ideal.cmpf_def, Ideal.hostDivf_def, Ideal.maximumf_def, Ideal.ofBits_def]
  exact Cert.Sage.agg_scalar ((val_main_v68 (F := Ideal) x0 x1 x2 x3 x7 x8 x9) (ix2 r k)) (Cert.KernelIdeal.Host.cnt x9 (ix2 r (0 : Fin 1)))

/-- The layer before its normalisation, at `(r, j)`, in the kernel's arrangement. -/
theorem layer2_at (x0 : (⟨S50000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256, .f32⟩ : BufTy).Contents (Elt Ideal)) (x9 : (⟨S2x800000, .i32⟩ : BufTy).Contents (Elt Ideal)) (r : Fin 50000) (j : Fin 256) :
    val_main_v87 (F := Ideal) x0 x1 x2 x3 x4 x5 x6 x7 x8 x9 (ix2 r j) = convAt (val_main_v68 (F := Ideal) x0 x1 x2 x3 x7 x8 x9) (val_main_v58 (F := Ideal) x0 x1 x2 x3 x7 x8 x9) (Cert.KernelIdeal.Host.scale x9) (Cert.KernelIdeal.Host.tr x4)
      (Cert.KernelIdeal.Host.tr x6) (Cert.KernelIdeal.Host.rowOf x5) r j := by
  have hl : ∀ k : Fin 256, lidx_main_v81 (ix2 r j) k = ix2 r k := fun k => funext fun a => Fin.ext (by match a with | ⟨0, _⟩ => rfl | ⟨1, _⟩ => rfl)
  have hr : ∀ k : Fin 256, ridx_main_v81 (ix2 r j) k = ix2 k j := fun k => funext fun a => Fin.ext (by match a with | ⟨0, _⟩ => rfl | ⟨1, _⟩ => rfl)
  have hl' : ∀ k : Fin 256, lidx_main_v86 (ix2 r j) k = ix2 r k := fun k => funext fun a => Fin.ext (by match a with | ⟨0, _⟩ => rfl | ⟨1, _⟩ => rfl)
  have hr' : ∀ k : Fin 256, ridx_main_v86 (ix2 r j) k = ix2 k j := fun k => funext fun a => Fin.ext (by match a with | ⟨0, _⟩ => rfl | ⟨1, _⟩ => rfl)
  have hb : idx_main_v82 (idx_main_v83 (ix2 r j)) = ix1 j := funext fun a => Fin.ext (by match a with | ⟨0, _⟩ => rfl)
  rw [val_main_v87_apply, val_main_v84_apply, val_main_v81_apply, val_main_v86_apply, val_main_v83_apply,
    val_main_v82_apply, hb]
  simp only [hl, hr, hl', hr', agg2_at, trl2_eq, trr2_eq]
  unfold convAt
  refine (add_right_comm _ _ _).trans ?_
  refine congrArg₂ (· + ·) rfl ?_
  exact (Cert.LibBiasRows.row_of_vector x5 _ j).symm

/-! ## The row-normalised second layer and the graph embedding -/

/-- A node's embedding: its row of the second layer divided by the larger of the row's length and the floor. -/
theorem node_at (x0 : (⟨S50000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256, .f32⟩ : BufTy).Contents (Elt Ideal)) (x9 : (⟨S2x800000, .i32⟩ : BufTy).Contents (Elt Ideal)) (r : Fin 50000) (j : Fin 256) :
    val_main_v92 (F := Ideal) x0 x1 x2 x3 x4 x5 x6 x7 x8 x9 (ix2 r j) = l2At (fun r j => val_main_v87 (F := Ideal) x0 x1 x2 x3 x4 x5 x6 x7 x8 x9 (ix2 r j)) (Ideal.ofBits .f32 0x2B8CBCCC#32) r j := by
  have h1 : idx_main_v91 (ix2 r j) = ix2 r (0 : Fin 1) := funext fun a => Fin.ext (by match a with | ⟨0, _⟩ => rfl | ⟨1, _⟩ => rfl)
  have h2 : idx_main_call3_v2 (ix2 r (0 : Fin 1)) = ix1 r := funext fun a => Fin.ext (by match a with | ⟨0, _⟩ => rfl)
  have hi : ∀ k : Fin 256, idx_main_call3_v1 (ix1 r) k = ix2 r k := fun k => funext fun a => Fin.ext (by match a with | ⟨0, _⟩ => rfl | ⟨1, _⟩ => rfl)
  rw [val_main_v92_apply, val_main_v91_apply, h1, val_main_v90_apply, val_main_v88_apply, val_main_call3_v2_apply, h2,
    val_main_call3_v1_apply, val_main_v89_apply, val_main_cst_19_apply, val_main_call3_cst_apply]
  simp only [Ideal.hostDivf_def, Ideal.maximumf_def, Ideal.hostUnary_sqrt_def, Ideal.ofBits_def]
  unfold l2At
  rw [Ideal.ofBits_zero_f32, zero_add]
  refine congrArg₂ Ideal.div rfl (congrArg₂ max (congrArg Ideal.sqrt (Finset.sum_congr rfl fun k _ => ?_)) rfl)
  rw [hi k, val_main_call3_v0_apply]
  rfl

/-- The graph embedding is the kernel program's pooling of the node embeddings. -/
theorem graph_eq (x0 : (⟨S50000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256, .f32⟩ : BufTy).Contents (Elt Ideal)) (x9 : (⟨S2x800000, .i32⟩ : BufTy).Contents (Elt Ideal)) (x10 : (⟨S50000, .i32⟩ : BufTy).Contents (Elt Ideal)) :
    val_main_v108 (F := Ideal) x0 x1 x2 x3 x4 x5 x6 x7 x8 x9 x10 = Cert.KernelIdeal.Host.unit (Cert.KernelIdeal.Host.pool (val_main_v92 (F := Ideal) x0 x1 x2 x3 x4 x5 x6 x7 x8 x9) x10) := rfl

end Cert.ReferenceIdeal.At

end
-- ==== Proof.Bridge.lean ====
/-
  The two programs compute one function. Entry by entry the first layer before normalisation is the same sum in both; for
  real node features, weights and bias its entries are real (a sum of gathered real rows, times a real scale, through real
  weights), so the one-pass column statistics the kernel program forms from its per-tile totals — mean, and mean of squares
  minus squared mean clamped at zero — are the reference's two-pass mean and variance; the normalised, rectified layer,
  the second layer and its row normalisation, and the pooled graph embedding then agree term by term.
-/
import proofs.«130432_j89258010345478_2_alg».proof.Proof.KHost
import proofs.«130432_j89258010345478_2_alg».proof.Proof.KReal
import proofs.«130432_j89258010345478_2_alg».proof.Proof.RefAt
import proofs.«130432_j89258010345478_2_alg».proof.Proof.LibBatchNorm
import proofs.«130432_j89258010345478_2_alg».proof.Proof.LibBiasRows
import Idealize.ShloMosaic.PureOps.Ideal.Laws
import Idealize.ShloMosaic.Lib.Pipeline.Value

set_option maxRecDepth 16384

noncomputable section

namespace Cert.Bridge

open Idealize.ShloMosaic Idealize.ShloMosaic.ValueIdx Cert.Sage
open Cert.LibBatchNorm hiding rowOf
open Cert.ReferenceIdeal Cert.ReferenceIdeal.Read Cert.ReferenceIdeal.At
open Cert.KernelIdeal.Host Cert.KernelIdeal.Blocks

/-! ## The layers, one after the other -/

/-- A vector laid out as a row reads, at column `j` of its one row, the vector at `j`. -/
theorem rowOf_at (b : FVec Ideal Cert.KernelIdeal.S256 .f32) (j : Fin 256) :
    Cert.KernelIdeal.Host.rowOf b (ix2 (0 : Fin 1) j) = b (ix1 j) := by
  unfold Cert.KernelIdeal.Host.rowOf
  exact Cert.LibBiasRows.row_of_vector b _ j

section Layers
variable (x0 : (⟨S50000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256, .f32⟩ : BufTy).Contents (Elt Ideal)) (x9 : (⟨S2x800000, .i32⟩ : BufTy).Contents (Elt Ideal))

theorem pre_eq : preK x0 x1 x2 x3 x9 = val_main_v32 (F := Ideal) x0 x1 x2 x3 x9 :=
  funext fun i => by
    obtain ⟨r, j, rfl⟩ : ∃ (r : Fin 50000) (j : Fin 256), i = ix2 r j := ⟨i 0, i 1, eq_ix2 i⟩
    rw [layer1_at, sums1_eq]
    rfl

theorem mean_eq (h0 : ∀ i, IsReal (x0 i)) (h1 : ∀ i, IsReal (x1 i)) (h2 : ∀ i, IsReal (x2 i)) (h3 : ∀ i, IsReal (x3 i)) (j : Fin 256) :
    meanOf (tileSums (preK x0 x1 x2 x3 x9)) (ix2 (0 : Fin 1) j) = val_main_v35 (F := Ideal) x0 x1 x2 x3 x9 (ix1 j)
      ∧ varOf (tileSums (preK x0 x1 x2 x3 x9)) (tileSumsq (preK x0 x1 x2 x3 x9)) (ix2 (0 : Fin 1) j) = val_main_v42 (F := Ideal) x0 x1 x2 x3 x9 (ix1 j) := by
  obtain ⟨hm, hv⟩ := stats (preK x0 x1 x2 x3 x9) (pre_real x0 x1 x2 x3 x9 h0 h1 h2 h3) j
  have em : val_main_v35 (F := Ideal) x0 x1 x2 x3 x9 (ix1 j) = meanR (fun r : Fin 50000 => preK x0 x1 x2 x3 x9 (ix2 r j)) ((50000 : ℝ) : EReal) := by
    rw [mean_at, Ideal.ofBits_zero_f32, ofBits_50000, ← pre_eq]; rfl
  refine ⟨hm.trans em.symm, hv.trans ?_⟩
  rw [var_at, em, Ideal.ofBits_zero_f32, ofBits_50000, ← pre_eq]
  rfl

theorem h1_eq (h0 : ∀ i, IsReal (x0 i)) (h1 : ∀ i, IsReal (x1 i)) (h2 : ∀ i, IsReal (x2 i)) (h3 : ∀ i, IsReal (x3 i)) :
    h1K (preK x0 x1 x2 x3 x9) x7 x8 = val_main_v58 (F := Ideal) x0 x1 x2 x3 x7 x8 x9 :=
  funext fun i => by
    obtain ⟨r, j, rfl⟩ : ∃ (r : Fin 50000) (j : Fin 256), i = ix2 r j := ⟨i 0, i 1, eq_ix2 i⟩
    obtain ⟨hm, hv⟩ := mean_eq x0 x1 x2 x3 x9 h0 h1 h2 h3 j
    rw [h1_at]
    show bnAt _ _ _ _ _ _ _ r j = _
    unfold bnAt
    rw [hm, hv, rowOf_at, rowOf_at, pre_eq]

theorem node_eq (h0 : ∀ i, IsReal (x0 i)) (h1 : ∀ i, IsReal (x1 i)) (h2 : ∀ i, IsReal (x2 i)) (h3 : ∀ i, IsReal (x3 i)) :
    nodeOf x0 x1 x2 x3 x4 x5 x6 x7 x8 x9 = val_main_v92 (F := Ideal) x0 x1 x2 x3 x4 x5 x6 x7 x8 x9 :=
  funext fun i => by
    obtain ⟨r, j, rfl⟩ : ∃ (r : Fin 50000) (j : Fin 256), i = ix2 r j := ⟨i 0, i 1, eq_ix2 i⟩
    rw [node_at]
    unfold nodeOf
    rw [h1_eq x0 x1 x2 x3 x7 x8 x9 h0 h1 h2 h3]
    show l2At _ _ r j = _
    refine congrArg (fun D => l2At D (Ideal.ofBits .f32 0x2B8CBCCC#32) r j) (funext fun r' => funext fun j' => ?_)
    rw [layer2_at, sums2_eq]

end Layers

end Cert.Bridge

end
-- ==== Proof.PreReal.lean ====
/-
  From the precondition to real entries. The precondition says of each float argument that the absolute value of every
  entry is below +∞; an extended real whose absolute value is below +∞ is neither infinity, so it is a real number.
-/
import proofs.«130432_j89258010345478_2_alg».proof.Pre_finite_inputs
import Idealize.ShloMosaic.PureOps.Ideal
import Idealize.ShloMosaic.Lib.ReduceAll
import Idealize.ShloMosaic.Lib.Affine
import Idealize.ShloMosaic.Lib.ValueIdx
import proofs.«130432_j89258010345478_2_alg».proof.Proof.LibBatchNorm

noncomputable section

namespace Cert.PreReal

open Idealize.ShloMosaic Cert.Pre_finite_inputs Cert.LibBatchNorm

instance : Subsingleton S_.Idx := ⟨fun a b => funext fun d => d.elim0⟩

/-- An extended real whose absolute value is below the word of +∞ is a real number. -/
theorem real_of_abs_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

variable [Cert.Pre_finite_inputs.Facts]

/-- Under the precondition the node features, the first layer's two weight matrices and its bias are real. -/
theorem reals (a0 : FVec Ideal S50000x256 .f32) (a1 : FVec Ideal S256x256 .f32) (a2 : FVec Ideal S256 .f32) (a3 : FVec Ideal S256x256 .f32)
    (a4 : FVec Ideal S256x256 .f32) (a5 : FVec Ideal S256 .f32) (a6 : FVec Ideal S256x256 .f32) (a7 a8 : FVec Ideal S256 .f32)
    (a9 : IVec S2x800000 32) (a10 : IVec S50000 32)
    (h : fn (F := Ideal) a0 a1 a2 a3 a4 a5 a6 a7 a8 a9 a10 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [fn, fn_part1, fn_part2] at h0
  obtain ⟨h38, -⟩ := IntOp.andi_eq_one.mp h0
  obtain ⟨h33, -⟩ := IntOp.andi_eq_one.mp h38
  obtain ⟨h28, -⟩ := IntOp.andi_eq_one.mp h33
  obtain ⟨h23, -⟩ := IntOp.andi_eq_one.mp h28
  obtain ⟨h18, -⟩ := IntOp.andi_eq_one.mp h23
  obtain ⟨h13, h17⟩ := IntOp.andi_eq_one.mp h18
  obtain ⟨h8, h12⟩ := IntOp.andi_eq_one.mp h13
  obtain ⟨h3, h7⟩ := IntOp.andi_eq_one.mp h8
  exact ⟨fun i => real_of_abs_lt _ (Host.reduce_andi_all _ _ _ _ _ h3 i), fun i => real_of_abs_lt _ (Host.reduce_andi_all _ _ _ _ _ h7 i),
    fun i => real_of_abs_lt _ (Host.reduce_andi_all _ _ _ _ _ h12 i), fun i => real_of_abs_lt _ (Host.reduce_andi_all _ _ _ _ _ h17 i)⟩

end Cert.PreReal

end
-- ==== Proof.lean ====
/-
  Two graph-convolution layers over 50000 nodes and 800000 edges, each the neighbour sums scaled by one over the
  neighbour count, through one weight matrix, plus the node's own features through another, plus a bias; batch
  normalisation and a rectifier after the first, row normalisation after the second, then a pooled, normalised graph
  embedding. The kernel program runs the dense part of each layer and the normalisations as three tiled kernels and takes
  the batch statistics in one pass from per-tile column totals; the reference takes them in two passes and divides by the
  count where the kernel program multiplies by its reciprocal.

  On the extended reals the two agree under the precondition: every entry of the first layer is a real number (a finite
  sum of real products), so mean of squares minus squared mean is the mean squared deviation and is not negative; a
  product with the masked reciprocal of a count clamped below by one is the masked quotient; sums commute. Everything
  downstream of the first layer is the same term of equal arrays.

  The three frames are the generated frame certificates (the reference's is its run with the results dropped); the
  idealization rewrote nothing.
-/
import proofs.«130432_j89258010345478_2_alg».proof.Defs
import proofs.«130432_j89258010345478_2_alg».proof.Proof.Gen.Kernel
import proofs.«130432_j89258010345478_2_alg».proof.Proof.Gen.Kernel.Frame
import proofs.«130432_j89258010345478_2_alg».proof.Proof.Gen.KernelIdeal
import proofs.«130432_j89258010345478_2_alg».proof.Proof.Gen.KernelIdeal.Frame
import proofs.«130432_j89258010345478_2_alg».proof.Proof.Gen.ReferenceIdeal
import proofs.«130432_j89258010345478_2_alg».proof.Proof.Gen.Pre_finite_inputs
import proofs.«130432_j89258010345478_2_alg».proof.Proof.KRun
import proofs.«130432_j89258010345478_2_alg».proof.Proof.KHost
import proofs.«130432_j89258010345478_2_alg».proof.Proof.RefRun
import proofs.«130432_j89258010345478_2_alg».proof.Proof.RefRead
import proofs.«130432_j89258010345478_2_alg».proof.Proof.Bridge
import proofs.«130432_j89258010345478_2_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the node embeddings and the graph embedding at one function of the argument arrays. -/
theorem algebraic : Cert.algebraic_KernelIdeal_ReferenceIdeal := by
  intro m ρ m' ρ' hpre hagree
  refine ⟨fun c => Cert.KernelIdeal.Host.nodeOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.KernelIdeal.Host.unit (Cert.KernelIdeal.Host.pool (Cert.KernelIdeal.Host.nodeOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (m ((c.tc : Thread Cert.KernelIdeal.nD Cert.KernelIdeal.τ).loc Cert.KernelIdeal.main_arg10))), ?_, ?_⟩
  · exact (θ_run Cert.KernelIdeal.defs _ _).mono
      (fun _ h c => ⟨(h c).1.trans (Cert.KernelIdeal.Host.result0 m ρ c), (h c).2.1.trans (Cert.KernelIdeal.Host.result1 m ρ c), (h c).2.2⟩)
      (Cert.KernelIdeal.Named.run (F := Ideal) m ρ)
  · refine (θ_run Cert.ReferenceIdeal.defs _ _).mono (fun _ h c => ?_) (Cert.ReferenceIdeal.Value.run (F := Ideal) m' ρ')
    obtain ⟨e0, e1, e2, e3, e4, e5, e6, e7, e8, e9, e10⟩ := hagree c
    obtain ⟨h0, h1, h2, h3⟩ := Cert.PreReal.reals _ _ _ _ _ _ _ _ _ _ _ (hpre c)
    have hnode := Cert.Bridge.node_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) h0 h1 h2 h3
    refine ⟨(h c).1.trans ?_, (h c).2.1.trans ?_, (h c).2.2⟩
    · rw [Cert.ReferenceIdeal.Read.val_main_v92_eq, e0, e1, e2, e3, e4, e5, e6, e7, e8, e9]
      exact hnode.symm
    · rw [Cert.ReferenceIdeal.Read.val_main_v108_eq, e0, e1, e2, e3, e4, e5, e6, e7, e8, e9, e10, Cert.ReferenceIdeal.At.graph_eq, ← hnode]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
